-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S1024x512 : Shape := ⟨2, ![1024, 512]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S512x512 : Shape := ⟨2, ![512, 512]⟩
abbrev S1x512 : Shape := ⟨2, ![1, 512]⟩
abbrev S_ : Shape := ⟨0, ![]⟩

abbrev nBuf : Space → Nat
  | .hbm => 10
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_23 : BitVec 32 := 0#32
  let v52 : BitVec 1 := Scalar.cmpi .ne v51 c0_i32_23
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  iota_S1024x512_d0_w32 : S1024x512.Iotas .tc 32 [0]
  iota_S1024x512_d1_w32 : S1024x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reducesTo_S8192x1_S_d0_1 : S8192x1.ReducesTo [0, 1] S_
  h_S_ : 0 < S_.numel
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call2_v0 : Ref sig .tc := ⟨.hbm, 35, rfl⟩
abbrev main_call2_v1 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Data.lean ====
/-
  The proof data of the two kernel regions, stated once for any float instance.

  Region 0 normalises each block of 1024 rows: every row is divided by the larger of its Euclidean norm and a
  small constant. Region 1 walks an 8 x 16 grid: point (i, j) multiplies row block i against column block j of the
  normalised rows, scales, exponentiates, removes the diagonal, and adds the row sums of the entries with equal
  labels to one running column and the row sums of the others to a second running column; both columns are reset
  at j = 0 and at j = 15 the row block's loss  -log (p / (p + n + eps))  is stored to the output block.
  The running columns live in two scratch buffers carried from point to point, so the invariant between points
  names their contents: `acc` below, by recursion on the point.
-/
import proofs.«110256_j13761075216965_2_alg».proof.Proof.Gen.KernelIdeal.Launch
import proofs.«110256_j13761075216965_2_alg».proof.Proof.Gen.KernelIdeal.Skeleton
import proofs.«110256_j13761075216965_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the row normalisation -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 x 512 block, as the rectangle the body loads and stores through. -/
abbrev rA : Rect S1024x512 := Rect.unit (s := S1024x512) ![0, 0] S1024x512.size inb_S1024x512_S1024x512_0_0

/-- What the body leaves in the output block: its one store, of the normalised rows of the input block. -/
def normBlock (x0 : Vec F S1024x512 .f32) : Vec F S1024x512 .bf16 :=
  View.canon [⟨rA, k0_pay1 (View.ld x0 rA)⟩]

/-- The proof data of region 0: the input block stays, the output block holds the normalised rows. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => normBlock (blk0 V c 0 t)
  Φ _ := Pipeline.ΦA spec0 c
  q _ := fullShare
  owed _ := 0

/-! ## Region 1: the masked exponential sums and the loss -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024 x 1 column, as the rectangle the body loads and stores through. -/
abbrev rC : Rect S1024x1 := Rect.unit (s := S1024x1) ![0, 0] S1024x1.size inb_S1024x1_S1024x1_0_0

/-- One point's update of the column of sums over equal labels: the old column plus this block's row sums. -/
def stepP (i : grid1.Coords) (q : Vec F S1024x512 .bf16) (k : Vec F S512x512 .bf16) (lr : Vec F S1024x1 .i32) (lc : Vec F S1x512 .i32)
    (p : Vec F S1024x1 .f32) : Vec F S1024x1 .f32 :=
  k1_pay1 (k1_pay9 i q k lr lc) p

/-- One point's update of the column of sums over unequal labels. -/
def stepN (i : grid1.Coords) (q : Vec F S1024x512 .bf16) (k : Vec F S512x512 .bf16) (lr : Vec F S1024x1 .i32) (lc : Vec F S1x512 .i32)
    (n : Vec F S1024x1 .f32) : Vec F S1024x1 .f32 :=
  k1_pay2 (k1_pay10 i q k lr lc) n

/-- The two running columns after the points below `t`: reset to zero at the first column block of every row
    block, then one update per point. (At `t = 0` nothing has run; the value there is never read.) -/
def acc (c : Dev nD) : ℕ → Vec F S1024x1 .f32 × Vec F S1024x1 .f32
  | 0 => (k1_pay4, k1_pay5)
  | t + 1 =>
    if h : t < cfg1.N then
      let s : Vec F S1024x1 .f32 × Vec F S1024x1 .f32 := if t % 16 = 0 then (k1_pay4, k1_pay5) else acc c t
      (stepP (grid1.coords ⟨t, h⟩) (blk1 V c 0 ⟨t, h⟩) (blk1 V c 1 ⟨t, h⟩) (blk1 V c 2 ⟨t, h⟩) (blk1 V c 3 ⟨t, h⟩) s.1,
       stepN (grid1.coords ⟨t, h⟩) (blk1 V c 0 ⟨t, h⟩) (blk1 V c 1 ⟨t, h⟩) (blk1 V c 2 ⟨t, h⟩) (blk1 V c 3 ⟨t, h⟩) s.2)
    else acc c t

/-- What the last column block's point leaves in the output block: the loss of the two finished columns. -/
def lossBlock (p n : Vec F S1024x1 .f32) : Vec F S1024x1 .f32 :=
  View.canon [⟨rC, k1_pay3 p n⟩]

/-- Region 0's four staging buffers, idle while region 1 runs, each whole at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant between the points of region 1: the idle buffers and the generator register untouched, and the
    two scratch columns holding the running sums of the points so far (before the first point: anything). -/
def Phi1 (c : Dev nD) (t : Fin (cfg1.N + 1)) : sProp 𝕄 :=
  iprop(idleBufs (F := F) c ∗ (∃ r, prngReg c r)
    ∗ ∃ (p n : Vec F S1024x1 .f32), owns (c : Thread nD τ) (Memref.whole cc1_scratch0) fullShare p
        ∗ owns (c : Thread nD τ) (Memref.whole cc1_scratch1) fullShare n
        ∗ ⌜0 < t.val → p = (acc V c t.val).1 ∧ n = (acc V c t.val).2⌝)

/-- The proof data of region 1: the four input blocks stay; the output block, at the last column block of a row
    block, holds the loss of the finished sums (elsewhere the body does not touch it); the normalised rows are read
    through two windows, each at half the share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => lossBlock (acc V c (t.val + 1)).1 (acc V c (t.val + 1)).2
  Φ t := Phi1 V c t
  q w := match w with
    | ⟨0, _⟩ => fullShare.left
    | ⟨1, _⟩ => fullShare.right
    | ⟨2, _⟩ => fullShare
    | ⟨3, _⟩ => fullShare
    | ⟨4, _⟩ => fullShare
  owed _ := 0

end Cert.KernelIdeal.Hand

end
-- ==== Proof.Region0.lean ====
/-
  Region 0, the row normalisation: the body's triple and the library's body obligation.

  The body loads the whole input block, loads the whole output block once (the value is not used), and stores the
  normalised rows over the whole output block. So after the body the input block is as it was and the output block
  holds the one store's payload at every index: the store's rectangle is the whole block.
-/
import proofs.«110256_j13761075216965_2_alg».proof.Proof.Data

-- membership in a rectangle of 1024 x 512 entries: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The input window's staging buffer before the body -/

/-- The input window's current staging buffer holds its block at every point, fetched there or not, for any proof
    data whose array is the entry contents and whose body leaves the block in place: the window is fetched whole
    and is never idle. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The body's one store covers the output block -/

/-- The store's rectangle is the whole block, so every index of the block lies in it. -/
theorem cover0_1 (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

/-! ## The body's triple -/

set_option maxHeartbeats 1000000 in
/-- The body on whole staging memrefs, the input's at read contents `x0` and the output's at anything, runs to the
    continuation holding the input's as it was and the output's at the normalised rows of `x0`. -/
theorem sound_kernel0 (c : Dev nD) (E : Set ℕ) (i : grid0.Coords) (arg0 : Memref sig .tc .vmem S1024x512 .f32) (harg0 : arg0.IsWhole)
    (arg1 : Memref sig .tc .vmem S1024x512 .bf16) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (normBlock x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data projected -/

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = normBlock (blk0 V c 0 t) := by dsimp only [dat0]

/-- The input's current staging buffer holds its block at every point. -/
theorem before0_0 (c : Dev nD) (t : Fin cfg0.N) (d) : (dat0 V c).before 0 t d = blk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The body of region 1 on whole memrefs at variable contents, one triple per control case.

  The body branches twice on the column-block coordinate j of the grid point: at j = 0 it first resets the two
  running columns; at j = 15 it finally stores the loss of the two columns to the output block. Between, it
  always adds this block's row sums to the two columns. So there are three cases (j = 0, 0 < j < 15, j = 15),
  and in each the two scratch columns end at one update (stepP, stepN) of what they started from - at j = 0 of
  the reset values, whatever they held. The output block is left as found except at j = 15.
-/
import proofs.«110256_j13761075216965_2_alg».proof.Proof.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The two conditions, in closed form over the grid -/

/-- The first conditional's condition (the column block is the first one), from the grid coordinates. -/
abbrev cond1_0 (i : grid1.Coords) : Prop :=
  (Scalar.cmpi .ne (Scalar.extui (Scalar.cmpi .eq (BitVec.ofNat 32 (i 1).val) 0#32)) 0#32) = 1#1
/-- It holds exactly at the points that are multiples of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (the column block is the last one). -/
abbrev cond1_1 (i : grid1.Coords) : Prop := k1_cond2 i = 1#1
/-- It holds exactly at the points that are 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Whole-buffer loads and stores -/

theorem hz : (![0, 0] : Fin 2 → Nat) = fun _ => 0 := funext fun a => by fin_cases a <;> rfl

/-- A store through the whole column, made last, read back through any view, is its payload. -/
theorem read_writes_col_cons {sg : RefSig} {κ : Kind} {sp : Space} (v : View sg κ sp S1024x1 .f32) (f : v.ty.Contents (Elt F))
    (w : Vec F S1024x1 .f32) (L : List (View.Piece (Elt F) S1024x1 .f32)) :
    v.read (Elt F) (v.writes (Elt F) f (⟨rC, w⟩ :: L)) = w := by
  rw [View.read_writes_eq_canon _ _ _ (fun y => ⟨_, List.mem_cons.mpr (Or.inl rfl), View.mem_set_unit_zero hz inb_S1024x1_S1024x1_0_0 y⟩)]
  exact View.canon_cons_unit_zero hz _ w L

/-- A load of the whole column after one store of the whole column reads the payload. -/
theorem readCov_col {sg : RefSig} {κ : Kind} {sp : Space} (v : View sg κ sp S1024x1 .f32) (w : Vec F S1024x1 .f32) :
    v.readCov [(⟨rC, w⟩ : View.Piece (Elt F) S1024x1 .f32)] rC.toLoadRect = w :=
  View.readCov_unit_zero v hz inb_S1024x1_S1024x1_0_0 w

/-! ## The body's triple, case by case

Each is over ANY whole memrefs and contents: the four input blocks `q k lr lc`, the output block `d`, the two
columns `p n`. The printed function is its skeleton of loads and stores over the named payloads; each conditional is decided
from the case's hypotheses. -/

set_option maxHeartbeats 1000000 in
/-- The first column block (j = 0): both columns are reset, whatever they held, then updated once; the output block is left as found. -/
theorem run1_first (c : Dev nD) (E : Set ℕ) (i : grid1.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : cond1_0 i) (hc1 : ¬cond1_1 i)
    (q : Vec F S1024x512 .bf16) (k : Vec F S512x512 .bf16) (lr : Vec F S1024x1 .i32) (lc : Vec F S1x512 .i32)
    (d p n : Vec F S1024x1 .f32) (K : PUnit → sProp 𝕄) :
    iprop(owns (c : Thread nD τ) arg2 fullShare q ∗ owns (c : Thread nD τ) arg3 fullShare k
        ∗ owns (c : Thread nD τ) arg4 fullShare lr ∗ owns (c : Thread nD τ) arg5 fullShare lc
        ∗ owns (c : Thread nD τ) arg6 fullShare d ∗ owns (c : Thread nD τ) arg7 fullShare p ∗ owns (c : Thread nD τ) arg8 fullShare n
        ∗ (iprop(owns (c : Thread nD τ) arg2 fullShare q ∗ owns (c : Thread nD τ) arg3 fullShare k
            ∗ owns (c : Thread nD τ) arg4 fullShare lr ∗ owns (c : Thread nD τ) arg5 fullShare lc
            ∗ owns (c : Thread nD τ) arg6 fullShare d
            ∗ owns (c : Thread nD τ) arg7 fullShare (stepP i q k lr lc k1_pay4)
            ∗ owns (c : Thread nD τ) arg8 fullShare (stepN i q k lr lc k1_pay5)) -∗ K ⟨⟩))
      ⊢ wp frame (wpE (defs₀ (F := F)) Variants.none c none) E
          (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    sl_unfold_words
    rw [read_writes_col_cons, readCov_col]
    unfold stepP
    simp only [View.readAt_eq_ld, View.ld_unit_zero (S := S1024x512) hz, View.ld_unit_zero (S := S512x512) hz, View.ld_unit_zero (S := S1024x1) hz, View.ld_unit_zero (S := S1x512) hz]
  · iexists _; isplitr
    swap; · iexact H8
    ipureintro
    sl_unfold_words
    rw [read_writes_col_cons, readCov_col]
    unfold stepN
    simp only [View.readAt_eq_ld, View.ld_unit_zero (S := S1024x512) hz, View.ld_unit_zero (S := S512x512) hz, View.ld_unit_zero (S := S1024x1) hz, View.ld_unit_zero (S := S1x512) hz]

set_option maxHeartbeats 1000000 in
/-- A middle column block (0 < j < 15): both columns are updated once; the output block is left as found. -/
theorem run1_mid (c : Dev nD) (E : Set ℕ) (i : grid1.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond1_0 i) (hc1 : ¬cond1_1 i)
    (q : Vec F S1024x512 .bf16) (k : Vec F S512x512 .bf16) (lr : Vec F S1024x1 .i32) (lc : Vec F S1x512 .i32)
    (d p n : Vec F S1024x1 .f32) (K : PUnit → sProp 𝕄) :
    iprop(owns (c : Thread nD τ) arg2 fullShare q ∗ owns (c : Thread nD τ) arg3 fullShare k
        ∗ owns (c : Thread nD τ) arg4 fullShare lr ∗ owns (c : Thread nD τ) arg5 fullShare lc
        ∗ owns (c : Thread nD τ) arg6 fullShare d ∗ owns (c : Thread nD τ) arg7 fullShare p ∗ owns (c : Thread nD τ) arg8 fullShare n
        ∗ (iprop(owns (c : Thread nD τ) arg2 fullShare q ∗ owns (c : Thread nD τ) arg3 fullShare k
            ∗ owns (c : Thread nD τ) arg4 fullShare lr ∗ owns (c : Thread nD τ) arg5 fullShare lc
            ∗ owns (c : Thread nD τ) arg6 fullShare d
            ∗ owns (c : Thread nD τ) arg7 fullShare (stepP i q k lr lc p)
            ∗ owns (c : Thread nD τ) arg8 fullShare (stepN i q k lr lc n)) -∗ K ⟨⟩))
      ⊢ wp frame (wpE (defs₀ (F := F)) Variants.none c none) E
          (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [read_writes_col_cons]
    unfold stepP
    simp only [View.readAt_eq_ld, View.ld_unit_zero (S := S1024x512) hz, View.ld_unit_zero (S := S512x512) hz, View.ld_unit_zero (S := S1024x1) hz, View.ld_unit_zero (S := S1x512) hz]
  · iexists _; isplitr
    swap; · iexact H8
    ipureintro
    rw [read_writes_col_cons]
    unfold stepN
    simp only [View.readAt_eq_ld, View.ld_unit_zero (S := S1024x512) hz, View.ld_unit_zero (S := S512x512) hz, View.ld_unit_zero (S := S1024x1) hz, View.ld_unit_zero (S := S1x512) hz]

set_option maxHeartbeats 1000000 in
/-- The last column block (j = 15): both columns are updated once, and the loss of the updated columns is stored over the output block, whatever it held. -/
theorem run1_last (c : Dev nD) (E : Set ℕ) (i : grid1.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond1_0 i) (hc1 : cond1_1 i)
    (q : Vec F S1024x512 .bf16) (k : Vec F S512x512 .bf16) (lr : Vec F S1024x1 .i32) (lc : Vec F S1x512 .i32)
    (d p n : Vec F S1024x1 .f32) (K : PUnit → sProp 𝕄) :
    iprop(owns (c : Thread nD τ) arg2 fullShare q ∗ owns (c : Thread nD τ) arg3 fullShare k
        ∗ owns (c : Thread nD τ) arg4 fullShare lr ∗ owns (c : Thread nD τ) arg5 fullShare lc
        ∗ owns (c : Thread nD τ) arg6 fullShare d ∗ owns (c : Thread nD τ) arg7 fullShare p ∗ owns (c : Thread nD τ) arg8 fullShare n
        ∗ (iprop(owns (c : Thread nD τ) arg2 fullShare q ∗ owns (c : Thread nD τ) arg3 fullShare k
            ∗ owns (c : Thread nD τ) arg4 fullShare lr ∗ owns (c : Thread nD τ) arg5 fullShare lc
            ∗ owns (c : Thread nD τ) arg6 fullShare (lossBlock (stepP i q k lr lc p) (stepN i q k lr lc n))
            ∗ owns (c : Thread nD τ) arg7 fullShare (stepP i q k lr lc p)
            ∗ owns (c : Thread nD τ) arg8 fullShare (stepN i q k lr lc n)) -∗ K ⟨⟩))
      ⊢ wp frame (wpE (defs₀ (F := F)) Variants.none c none) E
          (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_words
    rw [read_writes_col_cons, readCov_col, readCov_col]
    unfold lossBlock stepP stepN
    rw [View.canon_unit_zero hz]
    simp only [View.readAt_eq_ld, View.ld_unit_zero (S := S1024x512) hz, View.ld_unit_zero (S := S512x512) hz, View.ld_unit_zero (S := S1024x1) hz, View.ld_unit_zero (S := S1x512) hz]
  isplitl [H7]
  · iexists _; isplitr
    swap; · iexact H7
    ipureintro
    sl_unfold_words
    rw [read_writes_col_cons]
    unfold stepP
    simp only [View.readAt_eq_ld, View.ld_unit_zero (S := S1024x512) hz, View.ld_unit_zero (S := S512x512) hz, View.ld_unit_zero (S := S1024x1) hz, View.ld_unit_zero (S := S1x512) hz]
  · iexists _; isplitr
    swap; · iexact H8
    ipureintro
    sl_unfold_words
    rw [read_writes_col_cons]
    unfold stepN
    simp only [View.readAt_eq_ld, View.ld_unit_zero (S := S1024x512) hz, View.ld_unit_zero (S := S512x512) hz, View.ld_unit_zero (S := S1024x1) hz, View.ld_unit_zero (S := S1x512) hz]

end Cert.KernelIdeal.Hand

end
-- ==== Proof.Region1.lean ====
/-
  The body obligation of region 1.

  At point t = 16 i + j the body is called with the four input blocks of the point in the inputs' staging buffers,
  the output's staging buffer, and the two scratch columns. The invariant between points says what the columns
  hold: the running sums `acc` of the points so far. By the column block j the point is in one of three cases
  (j = 0: the columns are reset first, so what they held is not read; 0 < j < 15; j = 15: the loss is stored), each
  the corresponding triple of the body on whole memrefs; afterwards the columns hold `acc` one point further,
  which is `acc`'s defining equation. The output's buffer is idle at j < 15 (handed back as found, and not
  written back there) and holds the loss block at j = 15.
-/
import proofs.«110256_j13761075216965_2_alg».proof.Proof.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The proof data, field by field -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = lossBlock (acc V c (t.val + 1)).1 (acc V c (t.val + 1)).2 := by dsimp only [dat1]

/-- Each input's current staging buffer holds its block of the point, fetched there or not: where it is not
    fetched its block index has not moved since the point before, and the body leaves the block in place. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)

/-! ## The running sums, one point further -/

/-- At the first column block of a row block the columns restart from the reset values. -/
theorem acc_succ_first (c : Dev nD) (t : Fin cfg1.N) (h : t.val % 16 = 0) :
    acc V c (t.val + 1)
      = (stepP (grid1.coords t) (blk1 V c 0 t) (blk1 V c 1 t) (blk1 V c 2 t) (blk1 V c 3 t) k1_pay4,
         stepN (grid1.coords t) (blk1 V c 0 t) (blk1 V c 1 t) (blk1 V c 2 t) (blk1 V c 3 t) k1_pay5) := by
  obtain ⟨n, hn⟩ := t
  show acc V c (n + 1) = _
  rw [acc, dif_pos hn]
  dsimp only
  rw [if_pos h]

/-- At every other column block they continue from the point before. -/
theorem acc_succ_step (c : Dev nD) (t : Fin cfg1.N) (h : ¬t.val % 16 = 0) :
    acc V c (t.val + 1)
      = (stepP (grid1.coords t) (blk1 V c 0 t) (blk1 V c 1 t) (blk1 V c 2 t) (blk1 V c 3 t) (acc V c t.val).1,
         stepN (grid1.coords t) (blk1 V c 0 t) (blk1 V c 1 t) (blk1 V c 2 t) (blk1 V c 3 t) (acc V c t.val).2) := by
  obtain ⟨n, hn⟩ := t
  show acc V c (n + 1) = _
  rw [acc, dif_pos hn]
  dsimp only
  rw [if_neg h]

/-! ## The invariant at a point's two ends -/

theorem Phi1_castSucc (c : Dev nD) (t : Fin cfg1.N) :
    (dat1 V c).Φ t.castSucc = iprop(idleBufs (F := F) c ∗ (∃ r, prngReg c r)
      ∗ ∃ (p n : Vec F S1024x1 .f32), owns (c : Thread nD τ) (Memref.whole cc1_scratch0) fullShare p
          ∗ owns (c : Thread nD τ) (Memref.whole cc1_scratch1) fullShare n
          ∗ ⌜0 < t.val → p = (acc V c t.val).1 ∧ n = (acc V c t.val).2⌝) := rfl

theorem Phi1_succ (c : Dev nD) (t : Fin cfg1.N) :
    (dat1 V c).Φ t.succ = iprop(idleBufs (F := F) c ∗ (∃ r, prngReg c r)
      ∗ ∃ (p n : Vec F S1024x1 .f32), owns (c : Thread nD τ) (Memref.whole cc1_scratch0) fullShare p
          ∗ owns (c : Thread nD τ) (Memref.whole cc1_scratch1) fullShare n
          ∗ ⌜0 < t.val + 1 → p = (acc V c (t.val + 1)).1 ∧ n = (acc V c (t.val + 1)).2⌝) := rfl

/-! ## Where the output window is idle -/

/-- Off the last column block the output window is idle: the body stores nothing into it there, -/
theorem idle1_4_of (i : grid1.Coords) (h : ¬cond1_1 i) : cfg1.idle 4 i = true := by
  show (!(k1_cond2 i == 1#1)) = true
  rw [Bool.not_eq_true', beq_eq_false_iff_ne]; exact h
/-- and at it the window is live. -/
theorem live1_4_of (i : grid1.Coords) (h : cond1_1 i) : cfg1.idle 4 i = false := by
  show (!(k1_cond2 i == 1#1)) = false
  rw [Bool.not_eq_false', beq_iff_eq]; exact h
/-- Off the last column block the output's block is not written back. -/
theorem noFlush1_4 (t : Fin cfg1.N) (h : ¬t.val % 16 = 15) : (cfg1.win 4).flush t = false := by
  cases hf : (cfg1.win 4).flush t
  · rfl
  · exact absurd ((flush1_4 t).mp hf) h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point: by the column block, the case's triple at the point's memrefs and blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3]
  rw [Phi1_castSucc, Phi1_succ]
  have hN : t.val < 128 := lt_of_lt_of_eq t.isLt (show cfg1.N = 128 from N_1)
  by_cases h0 : t.val % 16 = 0
  · -- the first column block
    have h15 : ¬t.val % 16 = 15 := by omega
    have hc0 : cond1_0 (grid1.coords t) := (hcond1_0 t).mpr h0
    have hc1 : ¬cond1_1 (grid1.coords t) := fun h => h15 ((hcond1_1 t).mp h)
    rw [Dat.leavesExact_idle (dat1 V c) 4 t (idle1_4_of _ hc1) (noFlush1_4 t h15)]
    rw [acc_succ_first V c t h0]
    iintro ⟨⟨Hidle, Hg, ⟨%p, %n, HS0, HS1, -⟩⟩, Ho, ⟨%d0, H0⟩, ⟨%d1, H1⟩, ⟨%d2, H2⟩, ⟨%d3, H3⟩, ⟨%d4, H4⟩⟩
    iapply (run1_first c Set.univ (grid1.coords t) _ _ _ _ _ _ _ _ _ _ _ _ _ _ hc0 hc1
      (blk1 V c 0 t) (blk1 V c 1 t) (blk1 V c 2 t) (blk1 V c 3 t) _ p n _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hidle Hg HS0 HS1]
    · isplitl [Hidle]; · iexact Hidle
      isplitl [Hg]; · iexact Hg
      iexists _, _
      isplitl [HS0]; · iexact HS0
      isplitl [HS1]; · iexact HS1
      ipureintro; exact fun _ => ⟨rfl, rfl⟩
    isplitl [Ho]; · iexact Ho
    isplitl [H0]; · iexact H0
    isplitl [H1]; · iexact H1
    isplitl [H2]; · iexact H2
    isplitl [H3]; · iexact H3
    iexists _; iexact H4
  · have hpos : 0 < t.val := by omega
    rw [acc_succ_step V c t h0]
    by_cases h15 : t.val % 16 = 15
    · -- the last column block
      have hc0 : ¬cond1_0 (grid1.coords t) := fun h => h0 ((hcond1_0 t).mp h)
      have hc1 : cond1_1 (grid1.coords t) := (hcond1_1 t).mpr h15
      rw [show (dat1 V c).leavesExact 4 t = owns (c : Thread nD τ) (st1_4 t) fullShare ((dat1 V c).after 4 t) from by
        unfold Dat.leavesExact; rw [live1_4_of _ hc1], after1_4, acc_succ_step V c t h0]
      iintro ⟨⟨Hidle, Hg, ⟨%p, %n, HS0, HS1, %hpn⟩⟩, Ho, ⟨%d0, H0⟩, ⟨%d1, H1⟩, ⟨%d2, H2⟩, ⟨%d3, H3⟩, ⟨%d4, H4⟩⟩
      obtain ⟨rfl, rfl⟩ := hpn hpos
      iapply (run1_last c Set.univ (grid1.coords t) _ _ _ _ _ _ _ _ _ _ _ _ _ _ hc0 hc1
        (blk1 V c 0 t) (blk1 V c 1 t) (blk1 V c 2 t) (blk1 V c 3 t) _ (acc V c t.val).1 (acc V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hidle Hg HS0 HS1]
      · isplitl [Hidle]; · iexact Hidle
        isplitl [Hg]; · iexact Hg
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      iexact H4
    · -- a middle column block
      have hc0 : ¬cond1_0 (grid1.coords t) := fun h => h0 ((hcond1_0 t).mp h)
      have hc1 : ¬cond1_1 (grid1.coords t) := fun h => h15 ((hcond1_1 t).mp h)
      rw [Dat.leavesExact_idle (dat1 V c) 4 t (idle1_4_of _ hc1) (noFlush1_4 t h15)]
      iintro ⟨⟨Hidle, Hg, ⟨%p, %n, HS0, HS1, %hpn⟩⟩, Ho, ⟨%d0, H0⟩, ⟨%d1, H1⟩, ⟨%d2, H2⟩, ⟨%d3, H3⟩, ⟨%d4, H4⟩⟩
      obtain ⟨rfl, rfl⟩ := hpn hpos
      iapply (run1_mid c Set.univ (grid1.coords t) _ _ _ _ _ _ _ _ _ _ _ _ _ _ hc0 hc1
        (blk1 V c 0 t) (blk1 V c 1 t) (blk1 V c 2 t) (blk1 V c 3 t) _ (acc V c t.val).1 (acc V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hidle Hg HS0 HS1]
      · isplitl [Hidle]; · iexact Hidle
        isplitl [Hg]; · iexact Hg
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The run of the whole program: the buffers' contents at each boundary between two items of the entry function
  (a kernel region or a stretch of host operations), the proof data of both regions at the contents their region
  is entered from, each region as a segment, and the launch: every weakly fair execution terminates and ends with
  every unscoped buffer at the last boundary's contents.

  Region 1 reads the normalised rows through two windows (row blocks and column blocks of one array). The array's
  full share is split in two halves at the region's entry, one per window, and joined again at its exit; both
  windows only read, so both halves end at the contents they were entered with.
-/
import proofs.«110256_j13761075216965_2_alg».proof.Proof.Data

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At region 0's exit: its output array at what its write-backs leave, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the two reshapes of the labels (region 1's entry). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At region 1's exit: the per-row losses at what the write-backs leave, every other buffer as entered. -/
abbrev W3 : Dev nD → Valuation τ sig (Elt F) := fun c =>
  Function.update (W2 m ρ c) (Proc.devRef .tc main_v3) ((dat1 (U2 m ρ) c).arrAt 4 cfg1.N)
abbrev U3 : (c : Dev nD) → (b : Ref sig .tc) → Buf (Elt F) ((c : Thread nD τ).loc b) := fun c b => W3 m ρ c b
/-- After the mean (the end). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W4 m ρ c) ∗ ∃ r, prngReg c r)

/-! ## Region 0 as a segment -/

set_option backward.isDefEq.respectTransparency.types false in
/-- Region 0 over the thread state: entered from every unscoped buffer at the launch contents, left with the
    normalised rows written; the generator register goes into the invariant and comes back; nothing is owed. -/
def reg0 (hb0 : ∀ c, BodyObligation (dat0 (F := F) (U0 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ Rr c)
  post c := iprop(StableHlo.held (c : Thread nD τ) (Pipeline.ucRefs τ sig) (W1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the arrays dealt at entry and gathered at exit -/

/-- The four distinct buffers behind region 1's five windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  unfold Pipeline.arrBufs
  exact bigSep_eq_bigSepL_of_eq [main_v0, main_v1, main_v2, main_v3] (by decide) (by decide) _

section Deal
variable (V : (c : Dev nD) → (b : Ref sig .tc) → Buf (Elt F) ((c : Thread nD τ).loc b))

/-- The shares region 1 holds its arrays at: the normalised rows at one half per reading window, the rest whole. -/
theorem share1_0 (c : Dev nD) : (dat1 (F := F) V c).share 0 = fullShare.left := rfl
theorem share1_1 (c : Dev nD) : (dat1 (F := F) V c).share 1 = fullShare.right := rfl
theorem share1_2 (c : Dev nD) : (dat1 (F := F) V c).share 2 = fullShare := rfl
theorem share1_3 (c : Dev nD) : (dat1 (F := F) V c).share 3 = fullShare := rfl
theorem share1_4 (c : Dev nD) : (dat1 (F := F) V c).share 4 = fullShare := rfl
/-- At entry each window's array holds the entry contents. -/
theorem arr1_entry (c : Dev nD) (w : Fin cfg1.W) : (dat1 (F := F) V c).arrAt w 0 = V c (Pipeline.arrRef spec1 w) := rfl

/-- Region 1's entry: the unscoped buffers are its five windows' arrays at the entry contents, the normalised rows
    at one half share per reading window, and the buffers no window touches. -/
theorem deal1 (c : Dev nD) :
    (unscopedBufs c (V c) : sProp 𝕄)
      ⊢ iprop((dat1 (F := F) V c).arrays ((dat1 (F := F) V c).arrAt · 0)
          ∗ Pipeline.unscopedRest (Ix := Unit) (Name := ℕ) (U := UR sig nD τ) (Lvl := ℕ) spec1 c (V c)) := by
  rw [Pipeline.unscopedBufs_split₀ (fun p : Fin 2 => cfgs p) 1 winFacts₀1.arr_unscoped c (V c)]
  refine sep_mono ?_ .rfl
  show Pipeline.arrBufs spec1 c (V c) ⊢ _
  rw [arrBufs1_eq]
  unfold Dat.arrays
  rw [bigSep_W1]
  simp only [share1_0, share1_1, share1_2, share1_3, share1_4, arr1_entry,
    (arr_whole1 0).set_eq_univ, (arr_whole1 1).set_eq_univ, (arr_whole1 2).set_eq_univ, (arr_whole1 3).set_eq_univ, (arr_whole1 4).set_eq_univ]
  iintro ⟨Hrows, Hlr, Hlc, Hout⟩
  ihave Hs := (pointsTo_share (PosShare.mem_left_op_right fullShare)).1 $$ Hrows
  icases Hs with ⟨Ha, Hb⟩
  isplitl [Ha]; · iexact Ha
  isplitl [Hb]; · iexact Hb
  isplitl [Hlr]; · iexact Hlr
  isplitl [Hlc]; · iexact Hlc
  iexact Hout
end Deal

section Gather
variable (V V' : (c : Dev nD) → (b : Ref sig .tc) → Buf (Elt F) ((c : Thread nD τ).loc b))

/-- A window region 1 only reads ends at its entry contents, after any number of points. -/
theorem arr1_in0 (c : Dev nD) (n : ℕ) : (dat1 (F := F) V c).arrAt 0 n = V c main_v0 := ((dat1 (F := F) V c).arrAt_in 0 rfl n).trans rfl
theorem arr1_in1 (c : Dev nD) (n : ℕ) : (dat1 (F := F) V c).arrAt 1 n = V c main_v0 := ((dat1 (F := F) V c).arrAt_in 1 rfl n).trans rfl
theorem arr1_in2 (c : Dev nD) (n : ℕ) : (dat1 (F := F) V c).arrAt 2 n = V c main_v1 := ((dat1 (F := F) V c).arrAt_in 2 rfl n).trans rfl
theorem arr1_in3 (c : Dev nD) (n : ℕ) : (dat1 (F := F) V c).arrAt 3 n = V c main_v2 := ((dat1 (F := F) V c).arrAt_in 3 rfl n).trans rfl

/-- Region 1's exit: its arrays at their final contents — the two halves of the normalised rows joined, the losses
    as written back — and the buffers no window touches make the unscoped buffers at the exit contents. -/
theorem gather1 (c : Dev nD) (h3 : V' c main_v3 = (dat1 (F := F) V c).arrAt 4 cfg1.N)
    (hrest : ∀ b : Ref sig .tc, b ≠ main_v3 → V' c b = V c b) :
    iprop((dat1 (F := F) V c).arrays ((dat1 (F := F) V c).arrAt · cfg1.N)
        ∗ Pipeline.unscopedRest (Ix := Unit) (Name := ℕ) (U := UR sig nD τ) (Lvl := ℕ) spec1 c (V c))
      ⊢ (unscopedBufs c (V' c) : sProp 𝕄) := by
  rw [Pipeline.unscopedBufs_split₀ (fun p : Fin 2 => cfgs p) 1 winFacts₀1.arr_unscoped c (V' c)]
  refine sep_mono ?_ (Entails.of_eq ?_)
  · show _ ⊢ Pipeline.arrBufs spec1 c (V' c)
    rw [arrBufs1_eq]
    unfold Dat.arrays
    rw [bigSep_W1]
    simp only [share1_0, share1_1, share1_2, share1_3, share1_4, arr1_in0, arr1_in1, arr1_in2, arr1_in3,
      (arr_whole1 0).set_eq_univ, (arr_whole1 1).set_eq_univ, (arr_whole1 2).set_eq_univ, (arr_whole1 3).set_eq_univ, (arr_whole1 4).set_eq_univ]
    rw [hrest main_v0 (by decide), hrest main_v1 (by decide), hrest main_v2 (by decide), h3]
    iintro ⟨Ha, Hb, Hlr, Hlc, Hout⟩
    isplitl [Ha Hb]
    · iapply (pointsTo_share (PosShare.mem_left_op_right fullShare)).2
      isplitl [Ha]; · iexact Ha
      iexact Hb
    isplitl [Hlr]; · iexact Hlr
    isplitl [Hlc]; · iexact Hlc
    iexact Hout
  · show Pipeline.unscopedRest spec1 c (V c) = Pipeline.unscopedRest spec1 c (V' c)
    rw [unscopedRest1_eq, unscopedRest1_eq, hrest main_arg0 (by decide), hrest main_arg1 (by decide), hrest main_cst (by decide),
      hrest main_v4 (by decide), hrest main_cst_0 (by decide), hrest main_v5 (by decide)]
end Gather

/-! ## Region 1 as a segment -/

theorem U3_out (c : Dev nD) : U3 m ρ c main_v3 = (dat1 (F := F) (U2 m ρ) c).arrAt 4 cfg1.N := by
  show Function.update (W2 m ρ c) (Proc.devRef .tc main_v3) _ (Proc.devRef .tc main_v3) = _
  exact Function.update_self _ _ _
theorem U3_rest (c : Dev nD) (b : Ref sig .tc) (hb : b ≠ main_v3) : U3 m ρ c b = U2 m ρ c b := by
  show Function.update (W2 m ρ c) (Proc.devRef .tc main_v3) _ (Proc.devRef .tc b) = _
  exact Function.update_of_ne (StableHlo.devRef_ne_of_ne hb) _ _

set_option backward.isDefEq.respectTransparency.types false in
/-- Region 1 over the thread state: entered from every unscoped buffer as the reshapes left them, left with the
    per-row losses written; the scratch columns and the generator register go into the invariant and come back. -/
def reg1 (hb1 : ∀ c, BodyObligation (dat1 (F := F) (U2 m ρ) c) (defs₀ (F := F)) Variants.none () Set.univ) :
    Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := deal1 (F := F) (U2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld _ c _ _ ∗ Pipeline.scopedRest spec1 c) ⊢ Phi1 (U2 m ρ) c 0
    rw [scopedRest1_eq]; unfold Phi1 idleBufs
    simp only [owns_whole]
    iintro ⟨Hp, -, Hs0, Hs1, Hs2, Hs3, ⟨%f0, Hc0⟩, ⟨%f1, Hc1⟩⟩
    isplitl [Hs0 Hs1 Hs2 Hs3]
    · isplitl [Hs0]; · iexact Hs0
      isplitl [Hs1]; · iexact Hs1
      isplitl [Hs2]; · iexact Hs2
      iexact Hs3
    isplitl [Hp]; · iexact Hp
    iexists f0; iexists f1
    isplitl [Hc0]; · iexact Hc0
    isplitl [Hc1]; · iexact Hc1
    ipureintro
    intro h; exact absurd h (by rw [Fin.val_zero]; exact Nat.lt_irrefl 0)
  hout c := by
    rw [Pipeline.ownSems0_none]
    show Phi1 (U2 m ρ) c (Fin.last cfg1.N) ⊢ iprop((∃ r, prngReg c r) ∗ BI.emp ∗ Pipeline.scopedRest spec1 c)
    rw [scopedRest1_eq]; unfold Phi1 idleBufs
    simp only [owns_whole]
    iintro ⟨⟨Hs0, Hs1, Hs2, Hs3⟩, Hp, ⟨%p, %n, Hc0, Hc1, -⟩⟩
    isplitl [Hp]; · iexact Hp
    isplitr; · iempintro
    isplitl [Hs0]; · iexact Hs0
    isplitl [Hs1]; · iexact Hs1
    isplitl [Hs2]; · iexact Hs2
    isplitl [Hs3]; · iexact Hs3
    isplitl [Hc0]; · iexists p; iexact Hc0
    iexists n; iexact Hc1
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (U2 m ρ c))
        ⊢ (unscopedBufs c (U3 m ρ c) : sProp 𝕄) := gather1 (F := F) (U2 m ρ) (U3 m ρ) c (U3_out m ρ c) (U3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The four items in order: the normalisation, the two reshapes, the loss kernel, the mean. -/
abbrev segs (hb0 : ∀ c, BodyObligation (dat0 (F := F) (U0 m ρ) c) (defs₀ (F := F)) Variants.none () Set.univ)
    (hb1 : ∀ c, BodyObligation (dat1 (F := F) (U2 m ρ) c) (defs₀ (F := F)) Variants.none () Set.univ) : List (Pipeline.Seg (pcfgs (F := F)) adm (pdats m ρ) () defs₀ 𝒱₀ L lv) :=
  [ .region (reg0 m ρ hb0),
    .host (hseg hostOps1 hostOps1_sub ops1_fresh (W1 m ρ)),
    .region (reg1 m ρ hb1),
    .host (hseg hostOps2 hostOps2_sub ops2_fresh (W3 m ρ)) ]

theorem main_run (hb0 : ∀ c, BodyObligation (dat0 (F := F) (U0 m ρ) c) (defs₀ (F := F)) Variants.none () Set.univ)
    (hb1 : ∀ c, BodyObligation (dat1 (F := F) (U2 m ρ) c) (defs₀ (F := F)) Variants.none () Set.univ) (c : Dev nD) : main (F := F) c = Pipeline.Seg.run (segs m ρ hb0 hb1) := (main_chain c).trans (by chain_rfl)

set_option backward.isDefEq.respectTransparency.types false in
/-- Every weakly fair execution from memory `m` with zero counters terminates without a fault, and ends with every
    unscoped buffer of every core at the last boundary's contents. -/
theorem run_main (hb0 : ∀ c, BodyObligation (dat0 (F := F) (U0 m ρ) c) (defs₀ (F := F)) Variants.none () Set.univ)
    (hb1 : ∀ c, BodyObligation (dat1 (F := F) (U2 m ρ) c) (defs₀ (F := F)) Variants.none () Set.univ) : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun c => by
      show iprop(StableHlo.held (c : Thread nD τ) (Pipeline.ucRefs τ sig) (W4 m ρ c) ∗ Rr c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.ReadBack.lean ====
/-
  What the buffers hold at the last boundary, walked back through the four items: the two arguments are never
  written, so they end as launched; the result is the mean of the per-row losses region 1 leaves; region 1 reads the
  normalised rows region 0 leaves and the two reshapes of the labels.
-/
import proofs.«110256_j13761075216965_2_alg».proof.Proof.Run
import proofs.«110256_j13761075216965_2_alg».proof.Proof.Gen.KernelIdeal.Regions
import Idealize.ShloMosaic.Lib.StableHlo.Run

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal
open Cert.KernelIdeal.Facts₀ Cert.KernelIdeal.Facts

variable {F : FTy → Type} [FloatOps F] [Named F]
variable (m : (ℓ : Loc nD τ sig) → Buf (Elt F) ℓ) (ρ : Dev nD → PrngReg)

/-- A buffer the mean's four operations do not write holds after them what it held before. -/
theorem W4_of (c : Dev nD) (r : Ref sig .tc) (h : r ∉ Gen.hostOps2_W) : W4 m ρ c r = W3 m ρ c r :=
  StableHlo.after_of_writes_sub Gen.hostOps2 _ Gen.hostOps2_writes h
/-- Region 1 changes only the buffer of the per-row losses. -/
theorem W3_of (c : Dev nD) (r : Ref sig .tc) (h : r ≠ main_v3) : W3 m ρ c r = W2 m ρ c r :=
  U3_rest m ρ c r h
/-- A buffer the two reshapes do not write holds after them what it held before. -/
theorem W2_of (c : Dev nD) (r : Ref sig .tc) (h : r ∉ Gen.hostOps1_W) : W2 m ρ c r = W1 m ρ c r :=
  StableHlo.after_of_writes_sub Gen.hostOps1 _ Gen.hostOps1_writes h

/-- The features end as launched. -/
theorem W4_arg0 (c : Dev nD) : W4 m ρ c main_arg0 = m ((c : Thread nD τ).loc main_arg0) :=
  (W4_of m ρ c main_arg0 (by decide)).trans <| (W3_of m ρ c main_arg0 (by decide)).trans <| (W2_of m ρ c main_arg0 (by decide)).trans <|
    (W1_arr m ρ c 0).trans (((dat0 (U0 m ρ) c).arrAt_in 0 rfl _).trans rfl)
/-- The labels end as launched. -/
theorem W4_arg1 (c : Dev nD) : W4 m ρ c main_arg1 = m ((c : Thread nD τ).loc main_arg1) :=
  (W4_of m ρ c main_arg1 (by decide)).trans <| (W3_of m ρ c main_arg1 (by decide)).trans <| (W2_of m ρ c main_arg1 (by decide)).trans <|
    (W1_of_ne m ρ c main_arg1 (by decide)).trans rfl

/-- Region 1 reads the normalised rows as region 0 leaves them. -/
theorem U2_rows (c : Dev nD) : U2 m ρ c main_v0 = (dat0 (U0 m ρ) c).arrAt 1 cfg0.N :=
  (W2_of m ρ c main_v0 (by decide)).trans (W1_arr m ρ c 1)

/-- The result is the mean of the last contents of the per-row losses. -/
theorem W4_result (c : Dev nD) :
    (W4 m ρ c main_v5 : S_.Idx → Elt F .f32) = Host.divf (Host.reduceAdd (W3 m ρ c main_v3 : S8192x1.Idx → Elt F .f32) (constant (F := F) S_ .f32 0x00000000#32) reducesTo_S8192x1_S_d0_1 h_S_) (constant (F := F) S_ .f32 0x46000000#32) := by
  show StableHlo.after Gen.hostOps2 (W3 m ρ c) (Proc.devRef .tc main_v5) = _
  after_results

/-- Region 1 reads the labels as a column … -/
theorem U2_labels_col (c : Dev nD) :
    (U2 m ρ c main_v1 : S8192x1.Idx → Elt F .i32) = shapeCast S8192x1 (m ((c : Thread nD τ).loc main_arg1) : S8192.Idx → Elt F .i32) shapeCasts_S8192_S8192x1 := by
  show StableHlo.after Gen.hostOps1 (W1 m ρ c) (Proc.devRef .tc main_v1) = _
  after_results
  rw [W1_of_ne m ρ c main_arg1 (by decide)]
  rfl
/-- … and as a row. -/
theorem U2_labels_row (c : Dev nD) :
    (U2 m ρ c main_v2 : S1x8192.Idx → Elt F .i32) = shapeCast S1x8192 (m ((c : Thread nD τ).loc main_arg1) : S8192.Idx → Elt F .i32) shapeCasts_S8192_S1x8192 := by
  show StableHlo.after Gen.hostOps1 (W1 m ρ c) (Proc.devRef .tc main_v2) = _
  after_results
  rw [W1_of_ne m ρ c main_arg1 (by decide)]
  rfl

/-! ## The run, read at the result and the arguments -/

/-- Given both regions' body obligations: every weakly fair execution terminates without a fault and ends with the
    result buffer at the last boundary's contents and both arguments as launched. -/
theorem run_result (hb0 : ∀ c, Pipeline.BodyObligation (dat0 (F := F) (U0 m ρ) c) (defs₀ (F := F)) Variants.none () Set.univ)
    (hb1 : ∀ c, Pipeline.BodyObligation (dat1 (F := F) (U2 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v5) = W4 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W4_arg0 m ρ c),
     (h c _ (mem_uc main_arg1 (by decide))).trans (W4_arg1 m ρ c)⟩) (run_main m ρ hb0 hb1)

/-- The frame: the program runs to the end, faults nowhere, and leaves both arguments as launched. -/
theorem frame_of (hb0 : ∀ c, Pipeline.BodyObligation (dat0 (F := F) (U0 m ρ) c) (defs₀ (F := F)) Variants.none () Set.univ)
    (hb1 : ∀ c, Pipeline.BodyObligation (dat1 (F := F) (U2 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ hb0 hb1)

end Cert.KernelIdeal.Hand

end
-- ==== Proof.Region0Value.lean ====
/-
  What region 0 leaves in its output array, index by index, at the extended reals.

  The body's payload at entry (r, k) of a block is the block's entry divided by the larger of the square root of
  the sum of the squares along row r and a small constant: the change of format on the way out is the identity at
  the extended reals. Point t of the grid reads and writes rows 1024 t .. 1024 t + 1023 of the arrays, all 512
  columns, so the block it writes back is the same function of the whole input array, read through the block; the
  eight blocks tile the output array, and the array ends holding, at (R, k), the normalised value of row R.
-/
import proofs.«110256_j13761075216965_2_alg».proof.Proof.Region0
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-! ## The payload at an index -/

/-- The zero offsets of a whole-block rectangle. -/
theorem zeroOff2 : (![0, 0] : Fin 2 → Nat) = fun _ => 0 := funext fun a => by fin_cases a <;> rfl

/-- The output block after the body is the body's payload of the input block: the one store is through the
    whole-block rectangle, and so is the load. -/
theorem normBlock_eq_pay {F : FTy → Type} [FloatOps F] [Named F] (x0 : Vec F S1024x512 .f32) :
    normBlock x0 = k0_pay1 x0 := by
  unfold normBlock
  rw [View.canon_unit_zero zeroOff2]
  rw [View.ld_unit_zero (S := S1024x512) zeroOff2]

/-- Entry (r, k) of the output block: the input's entry over the larger of the row's Euclidean norm and the
    constant. The row sum is the lane reduction read at row r; the keepdims column and its broadcast along the
    row only carry it to every k. -/
theorem normBlock_apply (x0 : Vec Ideal S1024x512 .f32) (r : Fin 1024) (k : Fin 512) :
    normBlock x0 (ix2 r k) = Ideal.div (x0 (ix2 r k))
      (max (Ideal.sqrt (∑ j : Fin 512, x0 (ix2 r j) * x0 (ix2 r j))) (Ideal.ofBits .f32 0x2B8CBCCC#32)) := by
  rw [normBlock_eq_pay]
  unfold k0_pay1
  show Ideal.div (x0 (ix2 r k)) (broadcastTo S1024x512 _ broadcasts_S1024x1_S1024x512 (ix2 r k)) = _
  refine congrArg (Ideal.div (x0 (ix2 r k))) ?_
  refine (broadcastTo_apply _ broadcasts_S1024x1_S1024x512 (ix2 r k) (ix2 r (0 : Fin 1)) (fun a => ?_)).trans ?_
  · match a with
    | ⟨0, _⟩ => rfl
    | ⟨1, _⟩ => rfl
  show max (Ideal.sqrt (shapeCast S1024x1 _ shapeCasts_S1024_S1024x1 (ix2 r (0 : Fin 1)))) (Ideal.ofBits .f32 0x2B8CBCCC#32) = _
  refine congrArg (fun z => max (Ideal.sqrt z) (Ideal.ofBits .f32 0x2B8CBCCC#32)) ?_
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (Ideal.multiReduction_add_single (mulf x0 x0) 0x00000000#32 reduces_S1024x512_S1024 _ _ (ix1 r)).trans ?_
  refine Finset.sum_congr rfl fun j _ => ?_
  have e : reduces_S1024x512_S1024.lift (ix1 r) j = ix2 r j :=
    funext fun a => Fin.ext (by match a with | ⟨0, _⟩ => rfl | ⟨1, _⟩ => rfl)
  rw [mulf_apply, e]
  rfl

/-- The same at any index of the block. -/
theorem normBlock_at (x0 : Vec Ideal S1024x512 .f32) (y : S1024x512.Idx) :
    normBlock x0 y = Ideal.div (x0 y)
      (max (Ideal.sqrt (∑ j : Fin 512, x0 (ix2 (y 0) j) * x0 (ix2 (y 0) j))) (Ideal.ofBits .f32 0x2B8CBCCC#32)) := by
  obtain ⟨r, k, rfl⟩ : ∃ (r : Fin 1024) (k : Fin 512), y = ix2 r k := ⟨y 0, y 1, eq_ix2 y⟩
  exact normBlock_apply x0 r k

/-! ## The whole array's function -/

/-- Every row of an 8192 x 512 array divided by the larger of its Euclidean norm and the constant. -/
def normRows (a : S8192x512.Idx → EReal) : S8192x512.Idx → EReal := fun i =>
  Ideal.div (a i) (max (Ideal.sqrt (∑ j : Fin 512, a (ix2 (i 0) j) * a (ix2 (i 0) j))) (Ideal.ofBits .f32 0x2B8CBCCC#32))

/-- Entry (R, k) of it. -/
theorem normRows_apply (a : S8192x512.Idx → EReal) (R : Fin 8192) (k : Fin 512) :
    normRows a (ix2 R k) = Ideal.div (a (ix2 R k))
      (max (Ideal.sqrt (∑ j : Fin 512, a (ix2 R j) * a (ix2 R j))) (Ideal.ofBits .f32 0x2B8CBCCC#32)) := rfl

/-! ## From blocks to the array -/

variable (V : (c : Dev nD) → (b : Ref sig .tc) → Buf (Elt Ideal) ((c : Thread nD τ).loc b))

/-- The printed index maps over the grid: point t's block of either window is block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point t is rows 1024 t .. 1024 t + 1023 of the input array. -/
theorem blk0_in_apply (c : Dev nD) (t : Fin cfg0.N) (x : S1024x512.Idx) (i : S8192x512.Idx)
    (h0 : (i 0).val = 1024 * t.val + (x 0).val) (h1 : (i 1).val = (x 1).val) :
    (blk0 V c 0 t : Vec Ideal S1024x512 .f32) x = (V c main_arg0 : S8192x512.Idx → EReal) i := by
  obtain ⟨e0, e1, -, -⟩ := idx_facts0 t
  unfold blk0
  rw [View.read_apply]
  show V c main_arg0 _ = V c main_arg0 _
  refine congrArg (V c main_arg0) ?_
  funext a
  apply Fin.ext
  match a with
  | ⟨0, _⟩ => show win0_0.index t (0 : Fin 2) * 1024 + 1 * (x 0).val = (i 0).val; rw [e0, h0]; omega
  | ⟨1, _⟩ => show win0_0.index t (1 : Fin 2) * 512 + 1 * (x 1).val = (i 1).val; rw [e1, h1]; omega

/-- What point t writes back is block t of the normalised rows of the input array as the region finds it. -/
theorem flushed0_1_eq (c : Dev nD) (t : Fin cfg0.N) :
    (dat0 V c).flushed 1 t = ((cfg0.win 1).blk t).view.read (Elt Ideal) (normRows (V c main_arg0)) := by
  show (cfg0.win 1).cut (grid0.coords t) ((dat0 V c).after 1 t) = _
  rw [after0_1]
  obtain ⟨-, -, e2, e3⟩ := idx_facts0 t
  funext y
  show normBlock (blk0 V c 0 t) y = normRows (V c main_arg0) (((cfg0.win 1).blk t).view.emb y)
  have hy0 : (y 0).val < 1024 := (y 0).isLt
  have hy1 : (y 1).val < 512 := (y 1).isLt
  have c0 : ((((cfg0.win 1).blk t).view.emb y) 0).val = 1024 * t.val + (y 0).val := by
    show win0_1.index t (0 : Fin 2) * 1024 + 1 * (y 0).val = _; rw [e2]; omega
  have c1 : ((((cfg0.win 1).blk t).view.emb y) 1).val = (y 1).val := by
    show win0_1.index t (1 : Fin 2) * 512 + 1 * (y 1).val = _; rw [e3]; omega
  rw [normBlock_at]
  unfold normRows
  rw [blk0_in_apply V c t y (((cfg0.win 1).blk t).view.emb y) c0 c1]
  refine congrArg (fun z => Ideal.div _ (max (Ideal.sqrt z) _)) ?_
  refine Finset.sum_congr rfl fun j _ => ?_
  rw [blk0_in_apply V c t (ix2 (y 0) j) (ix2 ((((cfg0.win 1).blk t).view.emb y) 0) j) c0 rfl]

/-- An index of the output array is in point t's block iff each coordinate is in the block's range on its axis. -/
theorem mem_blk0_1 (t : Fin cfg0.N) (i : S8192x512.Idx) :
    i ∈ ((cfg0.win 1).blk t).view.set ↔ ∀ a : Fin 2, win0_1.index t a * S1024x512.size a ≤ (i a).val ∧ (i a).val < win0_1.index t a * S1024x512.size a + S1024x512.size a := by
  show i ∈ ((View.whole main_v0).slice (win0_1.rect t)).set ↔ _
  rw [View.set_slice_whole, Rect.mem_set_unit]
  exact Iff.rfl

/-- Row R of the output array is covered by point R / 1024, which writes its block back. -/
theorem cover0_arr (i : S8192x512.Idx) :
    ∃ t : Fin cfg0.N, (cfg0.win 1).flush t = true ∧ i ∈ ((cfg0.win 1).blk t).view.set := by
  have hi0 : (i 0).val < 8192 := (i 0).isLt
  have hi1 : (i 1).val < 512 := (i 1).isLt
  have hN : cfg0.N = 8 := N_0
  refine ⟨⟨(i 0).val / 1024, by rw [hN]; omega⟩, flush0_1 _, ?_⟩
  rw [mem_blk0_1]
  obtain ⟨-, -, e2, e3⟩ := idx_facts0 ⟨(i 0).val / 1024, by rw [hN]; omega⟩
  intro a
  match a with
  | ⟨0, _⟩ =>
    show win0_1.index _ (0 : Fin 2) * 1024 ≤ (i 0).val ∧ (i 0).val < win0_1.index _ (0 : Fin 2) * 1024 + 1024
    rw [e2]; show (i 0).val / 1024 * 1024 ≤ (i 0).val ∧ (i 0).val < (i 0).val / 1024 * 1024 + 1024; omega
  | ⟨1, _⟩ =>
    show win0_1.index _ (1 : Fin 2) * 512 ≤ (i 1).val ∧ (i 1).val < win0_1.index _ (1 : Fin 2) * 512 + 512
    rw [e3]; omega

/-- The output array after region 0: the normalised rows of the input array as the region finds it. -/
theorem arr0_final (c : Dev nD) : (dat0 V c).arrAt 1 cfg0.N = normRows (V c main_arg0) :=
  (dat0 V c).arrAt_eq_of_cover 1 (normRows (V c main_arg0)) (fun t _ => flushed0_1_eq V c t) cover0_arr

end Cert.KernelIdeal.Hand

end
-- ==== Proof.Spec.lean ====
/-
  The contrastive loss as ONE function of its two argument arrays, on the extended reals, and the algebra between the
  two arrangements of its sums.

  For features x : [8192, 512] and labels lab : [8192]:
    nrm R    = max (sqrt (sum_k x[R,k]^2)) eps12          the clamped Euclidean norm of row R
    f R k    = x[R,k] / nrm R                             the normalised rows
    S R C    = sum_k f R k * f C k                        the similarity of rows R and C
    E R C    = 0 on the diagonal, exp (S R C * kappa) off it,   kappa = 134217728 / 9395241 (the inverse temperature)
    P R      = sum over C of E R C where lab R = lab C and R != C   (0 elsewhere)
    N R      = sum over C of E R C elsewhere
    loss R   = 0 - log (P R / (P R + N R + eps8))
    G        = (sum_R loss R) / 8192
  One program forms each row sum in one piece; the other walks the columns in 16 consecutive blocks of 512 and adds the
  block sums one after the other onto a column that starts at zero. Addition of extended reals is commutative and
  associative, so the two agree (`sum_blocks`, `iter_blocks`). One program weights an entry by a mask that is 0 or 1
  (and by 1 minus it), the other selects the entry or zero: `mul_one`, `mul_zero` and the two differences below. One divides by
  the temperature's float, the other multiplies by kappa: `div_temperature`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx
open scoped BigOperators

/-- The features` shape, [8192, 512]. -/
abbrev SFeat : Shape := ⟨2, ![8192, 512]⟩
/-- The labels` shape, [8192]. -/
abbrev SLab : Shape := ⟨1, ![8192]⟩

/-! ## The constants -/

/-- The norm's lower clamp, the float nearest 1e-12. -/
def eps12 : EReal := Ideal.ofBits .f32 0x2B8CBCCC#32
/-- The denominator's guard, the float nearest 1e-8. -/
def eps8 : EReal := Ideal.ofBits .f32 0x322BCC77#32
/-- The number of rows, the float 8192. -/
def rows : EReal := Ideal.ofBits .f32 0x46000000#32
/-- The inverse temperature: the reciprocal of the float nearest 0.07, which is 9395241 / 2^27. -/
def κ : EReal := ((134217728 / 9395241 : ℝ) : EReal)

/-! ## The function -/

variable (x : SFeat.Idx → EReal) (lab : SLab.Idx → BitVec 32)

/-- The clamped Euclidean norm of row `R`. -/
def nrm (R : Fin 8192) : EReal := max (Ideal.sqrt (∑ k : Fin 512, x (ix2 R k) * x (ix2 R k))) eps12
/-- The normalised rows. -/
def f (R : Fin 8192) (k : Fin 512) : EReal := Ideal.div (x (ix2 R k)) (nrm x R)
/-- The similarity of rows `R` and `C`. -/
def S (R C : Fin 8192) : EReal := ∑ k : Fin 512, f x R k * f x C k
/-- The exponential of the scaled similarity, with the diagonal removed. -/
def E (R C : Fin 8192) : EReal := if R = C then 0 else Ideal.exp (S x R C * κ)
/-- Row `R`'s sum over the other rows with its label. -/
def P (R : Fin 8192) : EReal := ∑ C : Fin 8192, (if lab (ix1 R) = lab (ix1 C) ∧ R ≠ C then E x R C else 0)
/-- Row `R`'s sum over everything else. -/
def N (R : Fin 8192) : EReal := ∑ C : Fin 8192, (if lab (ix1 R) = lab (ix1 C) ∧ R ≠ C then 0 else E x R C)
/-- Row `R`'s loss. -/
def loss (R : Fin 8192) : EReal := 0 - Ideal.log (Ideal.div (P x lab R) (P x lab R + N x lab R + eps8))
/-- The mean loss. -/
def G : EReal := Ideal.div (∑ R : Fin 8192, loss x lab R) rows

/-! ## Sums in blocks -/

section Blocks
variable {M : Type*} [AddCommMonoid M]

/-- Column `c` of block `j`, of 16 blocks of 512. -/
def col (j : Fin 16) (c : Fin 512) : Fin 8192 := ⟨512 * j.val + c.val, by have := j.isLt; have := c.isLt; omega⟩

/-- A sum over 8192 columns is the sum over the 16 blocks of the sums over each block's 512 columns. -/
theorem sum_blocks (g : Fin 8192 → M) : ∑ C : Fin 8192, g C = ∑ j : Fin 16, ∑ c : Fin 512, g (col j c) := by
  have e : (16 : ℕ) * 512 = 8192 := by norm_num
  rw [← Fintype.sum_prod_type' (fun j c => g (col j c)),
    ← Equiv.sum_comp ((finProdFinEquiv (m := 16) (n := 512)).trans (finCongr e)) g]
  refine Finset.sum_congr rfl fun p _ => congrArg g (Fin.ext ?_)
  show p.2.val + 512 * p.1.val = 512 * p.1.val + p.2.val
  omega

/-- Adding `B 0`, `B 1`, … one after the other onto a start value. -/
def iter (B : ℕ → M) (z : M) : ℕ → M
  | 0 => z
  | n + 1 => iter B z n + B n

theorem iter_eq (B : ℕ → M) (z : M) (n : ℕ) : iter B z n = z + ∑ j ∈ Finset.range n, B j := by
  induction n with
  | zero => simp [iter]
  | succ n ih => rw [iter, ih, Finset.sum_range_succ, add_assoc]

/-- The running sum over the blocks, from zero, after all 16 of them is the whole row sum. -/
theorem iter_blocks (g : Fin 8192 → M) (B : ℕ → M) (hB : ∀ j : Fin 16, B j.val = ∑ c : Fin 512, g (col j c)) :
    iter B 0 16 = ∑ C : Fin 8192, g C := by
  rw [iter_eq, zero_add, sum_blocks, Finset.sum_range]
  exact Finset.sum_congr rfl fun j _ => hB j

end Blocks

/-- A sum over a rank-1 index set is the sum over its coordinate. -/
theorem sum_idx1 {M : Type*} [AddCommMonoid M] {n : ℕ} (g : (⟨1, ![n]⟩ : Shape).Idx → M) :
    ∑ i, g i = ∑ a : Fin n, g (ix1 a) := by
  let e : Fin n ≃ (⟨1, ![n]⟩ : Shape).Idx :=
    { toFun := fun a => ix1 a, invFun := fun i => i 0, left_inv := fun _ => rfl, right_inv := fun i => (eq_ix1 i).symm }
  exact (Equiv.sum_comp e g).symm

/-! ## A 0/1 weight is a selection -/

theorem one_sub_one : (1 : EReal) - 1 = 0 := by
  rw [← EReal.coe_one, ← EReal.coe_sub, sub_self, EReal.coe_zero]
theorem one_sub_zero : (1 : EReal) - 0 = 1 := sub_zero 1
theorem zero_sub_eq_neg (y : EReal) : 0 - y = -y := by rw [sub_eq_add_neg, zero_add]

/-! ## The literals -/

/-- The float 1. -/
theorem ofBits_one : Ideal.ofBits .f32 0x3F800000#32 = 1 := by
  simp [Ideal.ofBits, Ideal.ieee, -EReal.coe_mul]; norm_num

/-- The float nearest 0.07 is 9395241 / 2^27. -/
theorem ofBits_temperature : Ideal.ofBits .f32 0x3D8F5C29#32 = ((9395241 / 134217728 : ℝ) : EReal) := by
  simp [Ideal.ofBits, Ideal.ieee, -EReal.coe_mul]; norm_num

/-- Dividing by the temperature's float is multiplying by the inverse temperature, at the infinities too. -/
theorem div_temperature (s : EReal) : Ideal.div s (Ideal.ofBits .f32 0x3D8F5C29#32) = s * κ := by
  rw [ofBits_temperature, Ideal.div_coe (by norm_num), κ]
  congr 2
  norm_num

end Cert.Spec

end
-- ==== Proof.LossRows.lean ====
/-
  The column of row losses as a function of the three arrays the second region reads: the normalised rows and the
  labels laid out as a column and as a row.

  For row R and column C:  Sm R C  is the inner product of rows R and C;  Ee R C  is 0 on the diagonal and the exponential
  of the scaled inner product off it;  Pp R  sums Ee R C over the columns whose label equals row R's, the diagonal left out;
  Nn R  sums it over all other columns; the loss of row R is  0 - log (Pp R / (Pp R + Nn R + eps)).
-/
import proofs.«110256_j13761075216965_2_alg».proof.KernelIdeal
import proofs.«110256_j13761075216965_2_alg».proof.Proof.Spec
import Idealize.ShloMosaic.Lib.ValueIdx

noncomputable section

namespace Cert.KernelIdeal.Hand

open Idealize.ShloMosaic Idealize.ShloMosaic.ValueIdx Cert.KernelIdeal
open scoped BigOperators

/-- The scale factor the program names: the inverse temperature. -/
def kap : EReal := Named.named (F := Ideal) Cert.KernelIdeal.κ "inv_temperature" (φ := .f32) 0x41649249#32

variable (fn : S8192x512.Idx → EReal) (lr : S8192x1.Idx → BitVec 32) (lc : S1x8192.Idx → BitVec 32)

/-- The inner product of rows `R` and `C`. -/
def Sm (R C : Fin 8192) : EReal := ∑ k : Fin 512, fn (ix2 R k) * fn (ix2 C k)
/-- The exponential of the scaled inner product, with the diagonal removed. -/
def Ee (R C : Fin 8192) : EReal := if R = C then 0 else Ideal.exp (Sm fn R C * kap)
/-- Row `R`'s sum over the other columns with its label. -/
def Pp (R : Fin 8192) : EReal :=
  ∑ C : Fin 8192, (if lr (ix2 R (0 : Fin 1)) = lc (ix2 (0 : Fin 1) C) ∧ R ≠ C then Ee fn R C else 0)
/-- Row `R`'s sum over everything else. -/
def Nn (R : Fin 8192) : EReal :=
  ∑ C : Fin 8192, (if lr (ix2 R (0 : Fin 1)) = lc (ix2 (0 : Fin 1) C) ∧ R ≠ C then 0 else Ee fn R C)
/-- The column of row losses. -/
def lossRows : S8192x1.Idx → EReal := fun i =>
  0 - Ideal.log (Ideal.div (Pp fn lr lc (i 0)) (Pp fn lr lc (i 0) + Nn fn lr lc (i 0) + Cert.Spec.eps8))

/-- The column at row `R`. -/
theorem lossRows_apply (R : Fin 8192) :
    lossRows fn lr lc (ix2 R (0 : Fin 1))
      = 0 - Ideal.log (Ideal.div (Pp fn lr lc R) (Pp fn lr lc R + Nn fn lr lc R + Cert.Spec.eps8)) := rfl

end Cert.KernelIdeal.Hand

end
-- ==== Proof.Region1Pay.lean ====
/-
  Region 1's arithmetic, entry by entry, at the extended reals.

  At grid point (i0, i1) the body holds row block i0 of the normalised rows (1024 rows), column block i1 (512 rows),
  and the two label blocks. Entry (r, s) of its 1024 x 512 tile is the exponential of the scaled similarity of row r
  of the first with row s of the second, zero where the global row 1024 i0 + r is the global column 512 i1 + s; the
  mask keeps the entries whose two labels agree, off that diagonal. The body adds, onto one running column, the sum
  along each row of the kept entries, and onto a second the sum of the others; at the first column block both
  columns restart from zero, and after the last the loss of row r is 0 - log (p / (p + n + eps)).
-/
import proofs.«110256_j13761075216965_2_alg».proof.Proof.Data
import proofs.«110256_j13761075216965_2_alg».proof.Proof.Region0Value
import proofs.«110256_j13761075216965_2_alg».proof.Proof.LossRows
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-! ## The diagonal test and the label mask, at an entry of the block -/

/-- Entry (r, s) of the block at grid point (i0, i1) is on the diagonal of the full matrix when its global row,
    1024 i0 + r, is its global column, 512 i1 + s: the words the kernel compares are these numbers, far below 2^32. -/
theorem pay6_eq_one_iff (i : grid1.Coords) (r : Fin 1024) (s : Fin 512) :
    k1_pay6 i (ix2 r s) = 1#1 ↔ 1024 * (i 0).val + r.val = 512 * (i 1).val + s.val := by
  have h0 : (i 0).val < 8 := (i 0).isLt
  have h1 : (i 1).val < 16 := (i 1).isLt
  have hr : r.val < 1024 := r.isLt
  have hs : s.val < 512 := s.isLt
  unfold k1_pay6
  show IntOp.cmpi .eq (IntOp.addi (Scalar.muli (BitVec.ofNat 32 (i 0).val) 1024#32) (iota .tc S1024x512 32 [0] iota_S1024x512_d0_w32 (ix2 r s)))
      (IntOp.addi (Scalar.muli (BitVec.ofNat 32 (i 1).val) 512#32) (iota .tc S1024x512 32 [1] iota_S1024x512_d1_w32 (ix2 r s))) = 1#1 ↔ _
  rw [IntOp.cmpi_eq, iota_single_apply, iota_single_apply]
  show BitVec.ofNat 32 (i 0).val * 1024#32 + BitVec.ofNat 32 r.val = BitVec.ofNat 32 (i 1).val * 512#32 + BitVec.ofNat 32 s.val ↔ _
  rw [← BitVec.toNat_inj]
  simp only [BitVec.toNat_add, BitVec.toNat_mul, BitVec.toNat_ofNat]
  omega

/-- On one bit, exclusive-or with 1 is 1 exactly when the bit is not. -/
theorem xori_one_eq_one_iff : ∀ b : BitVec 1, IntOp.xori b 1#1 = 1#1 ↔ ¬ b = 1#1 := by decide

/-- The mask at entry (r, s): the row's label is the column's label, off the diagonal. -/
theorem pay8_eq_one_iff (i : grid1.Coords) (lr : Vec Ideal S1024x1 .i32) (lc : Vec Ideal S1x512 .i32) (r : Fin 1024) (s : Fin 512) :
    k1_pay8 i lr lc (ix2 r s) = 1#1 ↔
      (lr (ix2 r (0 : Fin 1)) = lc (ix2 (0 : Fin 1) s) ∧ ¬ 1024 * (i 0).val + r.val = 512 * (i 1).val + s.val) := by
  unfold k1_pay8
  show IntOp.andi (IntOp.cmpi .eq (broadcastTo S1024x512 (shapeCast S1024x1 lr shapeCasts_S1024x1_S1024x1) broadcasts_S1024x1_S1024x512 (ix2 r s))
        (broadcastTo S1024x512 (shapeCast S1x512 lc shapeCasts_S1x512_S1x512) broadcasts_S1x512_S1024x512 (ix2 r s)))
      (IntOp.xori (k1_pay6 i (ix2 r s)) 1#1) = 1#1 ↔ _
  rw [IntOp.andi_eq_one, IntOp.cmpi_eq, xori_one_eq_one_iff, pay6_eq_one_iff, shapeCast_self, shapeCast_self]
  rw [broadcastTo_apply lr broadcasts_S1024x1_S1024x512 (ix2 r s) (ix2 r (0 : Fin 1)) (fun a => by
        match a with
        | ⟨0, _⟩ => rfl
        | ⟨1, _⟩ => rfl),
    broadcastTo_1b_ab_apply lc broadcasts_S1x512_S1024x512 r s]

/-! ## The scaled, exponentiated similarity with the diagonal removed -/

/-- The dot's operand indices on the axes it keeps: the output's row for the left operand, its column for the right. -/
theorem lhs_nt_0 (j : S1024x512.Idx) (q' : dot_S1024x512_S512x512_S1024x512_1_0_0_1_n_n.contr.Idx) :
    (dot_S1024x512_S512x512_S1024x512_1_0_0_1_n_n.lhsIdx j q' 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem rhs_nt_1 (j : S1024x512.Idx) (q' : dot_S1024x512_S512x512_S1024x512_1_0_0_1_n_n.contr.Idx) :
    (dot_S1024x512_S512x512_S1024x512_1_0_0_1_n_n.rhsIdx j q' 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The product of the row block with the transposed column block, into a zero accumulator, at entry (r, s): the
    sum over the 512 features of row r of the first times row s of the second. -/
theorem matmul_nt_apply (q : FVec Ideal S1024x512 .bf16) (k : FVec Ideal S512x512 .bf16) (r : Fin 1024) (s : Fin 512) :
    matmul dot_S1024x512_S512x512_S1024x512_1_0_0_1_n_n none (shapeCast S1024x512 q shapeCasts_S1024x512_S1024x512)
        (transpose S512x512 [1, 0] (shapeCast S512x512 k shapeCasts_S512x512_S512x512) transposes_S512x512_p1_0_S512x512)
        (constant (F := Ideal) S1024x512 .f32 0x00000000#32) (ix2 r s)
      = ∑ k' : Fin 512, q (ix2 r k') * k (ix2 s k') := by
  rw [shapeCast_self, shapeCast_self]
  simp only [matmul]
  rw [Ideal.matmul_constant_zero_apply,
    ← Equiv.sum_comp (contrEquiv1 dot_S1024x512_S512x512_S1024x512_1_0_0_1_n_n 512 rfl rfl).symm]
  refine Finset.sum_congr rfl fun k' _ => ?_
  have hk := contrEquiv1_symm_val dot_S1024x512_S512x512_S1024x512_1_0_0_1_n_n 512 rfl rfl k'
  have el : dot_S1024x512_S512x512_S1024x512_1_0_0_1_n_n.lhsIdx (ix2 r s)
      ((contrEquiv1 dot_S1024x512_S512x512_S1024x512_1_0_0_1_n_n 512 rfl rfl).symm k') = ix2 r k' :=
    funext fun a => Fin.ext (by
      match a with
      | ⟨0, _⟩ => exact lhs_nt_0 _ _
      | ⟨1, _⟩ => exact (dot_S1024x512_S512x512_S1024x512_1_0_0_1_n_n.lhsIdx_val_of_single rfl _ _).trans hk)
  have er : dot_S1024x512_S512x512_S1024x512_1_0_0_1_n_n.rhsIdx (ix2 r s)
      ((contrEquiv1 dot_S1024x512_S512x512_S1024x512_1_0_0_1_n_n 512 rfl rfl).symm k') = ix2 k' s :=
    funext fun a => Fin.ext (by
      match a with
      | ⟨0, _⟩ => exact (dot_S1024x512_S512x512_S1024x512_1_0_0_1_n_n.rhsIdx_val_of_single rfl _ _).trans hk
      | ⟨1, _⟩ => exact rhs_nt_1 _ _)
  rw [el, er, transpose_ix2_apply k transposes_S512x512_p1_0_S512x512 k' s]

/-- Entry (r, s) of the block's exponentials: zero on the diagonal, the exponential of the scaled similarity off it. -/
def eBlk (i : grid1.Coords) (q : Vec Ideal S1024x512 .bf16) (k : Vec Ideal S512x512 .bf16) (r : Fin 1024) (s : Fin 512) : EReal :=
  if 1024 * (i 0).val + r.val = 512 * (i 1).val + s.val then 0
  else Ideal.exp ((∑ k' : Fin 512, q (ix2 r k') * k (ix2 s k')) * kap)

theorem pay7_apply (i : grid1.Coords) (q : Vec Ideal S1024x512 .bf16) (k : Vec Ideal S512x512 .bf16) (r : Fin 1024) (s : Fin 512) :
    k1_pay7 i q k (ix2 r s) = eBlk i q k r s := by
  unfold k1_pay7 eBlk
  show (if k1_pay6 i (ix2 r s) = 1#1 then Ideal.ofBits .f32 0x00000000#32 else Ideal.exp (_ * kap)) = _
  refine if_congr (pay6_eq_one_iff i r s) Ideal.ofBits_zero_f32 (congrArg (fun z => Ideal.exp (z * kap)) ?_)
  exact matmul_nt_apply q k r s

/-- The mask as a proposition. -/
def mBlk (i : grid1.Coords) (lr : Vec Ideal S1024x1 .i32) (lc : Vec Ideal S1x512 .i32) (r : Fin 1024) (s : Fin 512) : Prop :=
  lr (ix2 r (0 : Fin 1)) = lc (ix2 (0 : Fin 1) s) ∧ ¬ 1024 * (i 0).val + r.val = 512 * (i 1).val + s.val

instance (i : grid1.Coords) (lr : Vec Ideal S1024x1 .i32) (lc : Vec Ideal S1x512 .i32) (r : Fin 1024) (s : Fin 512) :
    Decidable (mBlk i lr lc r s) := by unfold mBlk; infer_instance

/-! ## The two row sums of a block and the running columns -/

/-- The [1024] lane sum cast to a [1024, 1] column reads, at (r, 0), the sum along row r. -/
theorem rowSum_apply (v : FVec Ideal S1024x512 .f32) (hφ) (hacc) (r : Fin 1024) :
    shapeCast S1024x1 (multiReduction .add [1] S1024 v 0x00000000#32 reduces_S1024x512_S1024 hφ hacc) shapeCasts_S1024_S1024x1 (ix2 r (0 : Fin 1))
      = ∑ s : Fin 512, v (ix2 r s) := by
  refine (shapeCast_apply _ shapeCasts_S1024_S1024x1 (ix2 r (0 : Fin 1)) (ix1 r) ?_).trans ?_
  · rw [Shape.rowMajor_val_one, Shape.rowMajor_val_two]
    show r.val = r.val * 1 + 0
    omega
  refine (Ideal.multiReduction_add_single v 0x00000000#32 reduces_S1024x512_S1024 hφ hacc (ix1 r)).trans ?_
  refine Finset.sum_congr rfl fun j _ => ?_
  exact congrArg v (funext fun a => Fin.ext (by match a with | ⟨0, _⟩ => rfl | ⟨1, _⟩ => rfl))

/-- The block's row sums over the entries the mask keeps. -/
theorem pay9_apply (i : grid1.Coords) (q : Vec Ideal S1024x512 .bf16) (k : Vec Ideal S512x512 .bf16)
    (lr : Vec Ideal S1024x1 .i32) (lc : Vec Ideal S1x512 .i32) (r : Fin 1024) :
    k1_pay9 i q k lr lc (ix2 r (0 : Fin 1)) = ∑ s : Fin 512, (if mBlk i lr lc r s then eBlk i q k r s else 0) := by
  unfold k1_pay9
  refine (rowSum_apply _ _ _ r).trans (Finset.sum_congr rfl fun s _ => ?_)
  show (if k1_pay8 i lr lc (ix2 r s) = 1#1 then k1_pay7 i q k (ix2 r s) else Ideal.ofBits .f32 0x00000000#32) = _
  exact if_congr (pay8_eq_one_iff i lr lc r s) (pay7_apply i q k r s) Ideal.ofBits_zero_f32

/-- The other entries of the block, at (r, s). -/
theorem pay10_apply (i : grid1.Coords) (q : Vec Ideal S1024x512 .bf16) (k : Vec Ideal S512x512 .bf16)
    (lr : Vec Ideal S1024x1 .i32) (lc : Vec Ideal S1x512 .i32) (r : Fin 1024) (s : Fin 512) :
    k1_pay10 i q k lr lc (ix2 r s) = (if mBlk i lr lc r s then 0 else eBlk i q k r s) := by
  unfold k1_pay10
  show (if k1_pay8 i lr lc (ix2 r s) = 1#1 then Ideal.ofBits .f32 0x00000000#32 else k1_pay7 i q k (ix2 r s)) = _
  exact if_congr (pay8_eq_one_iff i lr lc r s) Ideal.ofBits_zero_f32 (pay7_apply i q k r s)

/-- One point adds the block's kept row sums onto the first running column. -/
theorem stepP_apply (i : grid1.Coords) (q : Vec Ideal S1024x512 .bf16) (k : Vec Ideal S512x512 .bf16)
    (lr : Vec Ideal S1024x1 .i32) (lc : Vec Ideal S1x512 .i32) (p : Vec Ideal S1024x1 .f32) (r : Fin 1024) :
    stepP i q k lr lc p (ix2 r (0 : Fin 1))
      = p (ix2 r (0 : Fin 1)) + ∑ s : Fin 512, (if mBlk i lr lc r s then eBlk i q k r s else 0) := by
  unfold stepP k1_pay1
  rw [shapeCast_self]
  show p (ix2 r (0 : Fin 1)) + k1_pay9 i q k lr lc (ix2 r (0 : Fin 1)) = _
  exact congrArg (p (ix2 r (0 : Fin 1)) + ·) (pay9_apply i q k lr lc r)

/-- and the other entries' row sums onto the second. -/
theorem stepN_apply (i : grid1.Coords) (q : Vec Ideal S1024x512 .bf16) (k : Vec Ideal S512x512 .bf16)
    (lr : Vec Ideal S1024x1 .i32) (lc : Vec Ideal S1x512 .i32) (n : Vec Ideal S1024x1 .f32) (r : Fin 1024) :
    stepN i q k lr lc n (ix2 r (0 : Fin 1))
      = n (ix2 r (0 : Fin 1)) + ∑ s : Fin 512, (if mBlk i lr lc r s then 0 else eBlk i q k r s) := by
  unfold stepN k1_pay2
  rw [shapeCast_self]
  show n (ix2 r (0 : Fin 1)) + shapeCast S1024x1 (multiReduction .add [1] S1024 (k1_pay10 i q k lr lc) 0x00000000#32 reduces_S1024x512_S1024 _ _) shapeCasts_S1024_S1024x1 (ix2 r (0 : Fin 1)) = _
  refine congrArg (n (ix2 r (0 : Fin 1)) + ·) ((rowSum_apply (k1_pay10 i q k lr lc) _ _ r).trans ?_)
  exact Finset.sum_congr rfl fun s _ => pay10_apply i q k lr lc r s

/-- The reset columns are zero. -/
theorem pay4_apply (y : S1024x1.Idx) : k1_pay4 (F := Ideal) y = 0 := by
  unfold k1_pay4
  rw [shapeCast_self]
  exact Ideal.ofBits_zero_f32
theorem pay5_apply (y : S1024x1.Idx) : k1_pay5 (F := Ideal) y = 0 := by
  unfold k1_pay5
  rw [shapeCast_self]
  exact Ideal.ofBits_zero_f32

/-! ## The loss of the two finished columns -/

theorem lossBlock_apply (p n : Vec Ideal S1024x1 .f32) (y : S1024x1.Idx) :
    lossBlock p n y = 0 - Ideal.log (Ideal.div (p y) (p y + n y + Cert.Spec.eps8)) := by
  unfold lossBlock
  rw [View.canon_unit_zero zeroOff2]
  unfold k1_pay3
  show Ideal.ofBits .f32 0x00000000#32 - Ideal.log (Ideal.div (p y) (p y + n y + Ideal.ofBits .f32 0x322BCC77#32)) = _
  rw [Ideal.ofBits_zero_f32]
  rfl

end Cert.KernelIdeal.Hand

end
-- ==== Proof.Region1Value.lean ====
/-
  Region 1's output array in closed form, at the extended reals.

  Point t of the 8 x 16 grid is (I, J) = (t / 16, t % 16). Its row-side blocks are rows 1024 I .. of the normalised rows
  and of the row labels, its column-side blocks rows 512 J .. of the normalised rows and columns 512 J .. of the column
  labels, so each entry of its tile is the entry (1024 I + r, 512 J + s) of the full 8192 x 8192 matrix and its mask the
  full mask there. Along a row block the two running columns therefore collect, block after block from zero, the 16
  parts of each row's two sums; addition being commutative and associative, after the last block they hold the whole
  sums, and the block written back there is the loss of rows 1024 I .. 1024 I + 1023. Those eight blocks tile the output.
-/
import proofs.«110256_j13761075216965_2_alg».proof.Proof.Data
import proofs.«110256_j13761075216965_2_alg».proof.Proof.Region0Value
import proofs.«110256_j13761075216965_2_alg».proof.Proof.Region1Pay
import proofs.«110256_j13761075216965_2_alg».proof.Proof.LossRows
import proofs.«110256_j13761075216965_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

open Cert.Spec (col iter iter_blocks)

/-! ## Rows, columns and the terms of the two sums -/

/-- Row r of row block I, of 8 blocks of 1024. -/
def row (I : Fin 8) (r : Fin 1024) : Fin 8192 := ⟨1024 * I.val + r.val, by have := I.isLt; have := r.isLt; omega⟩

section Terms
variable (fn : S8192x512.Idx → EReal) (lr : S8192x1.Idx → BitVec 32) (lc : S1x8192.Idx → BitVec 32)

/-- The term of the first sum at (R, C): the entry where the labels agree off the diagonal, zero elsewhere. -/
def pT (R C : Fin 8192) : EReal := if lr (ix2 R (0 : Fin 1)) = lc (ix2 (0 : Fin 1) C) ∧ R ≠ C then Ee fn R C else 0
/-- The term of the second sum: the other entries. -/
def nT (R C : Fin 8192) : EReal := if lr (ix2 R (0 : Fin 1)) = lc (ix2 (0 : Fin 1) C) ∧ R ≠ C then 0 else Ee fn R C

theorem Pp_eq_sum (R : Fin 8192) : Pp fn lr lc R = ∑ C : Fin 8192, pT fn lr lc R C := rfl
theorem Nn_eq_sum (R : Fin 8192) : Nn fn lr lc R = ∑ C : Fin 8192, nT fn lr lc R C := rfl

/-- Column block j's part of row R's first sum (zero past the 16 blocks). -/
def bP (R : Fin 8192) (j : ℕ) : EReal := if h : j < 16 then ∑ s : Fin 512, pT fn lr lc R (col ⟨j, h⟩ s) else 0
/-- and of its second sum. -/
def bN (R : Fin 8192) (j : ℕ) : EReal := if h : j < 16 then ∑ s : Fin 512, nT fn lr lc R (col ⟨j, h⟩ s) else 0

/-- Adding the 16 block parts one after the other from zero gives the whole row sums. -/
theorem iter_bP (R : Fin 8192) : iter (bP fn lr lc R) 0 16 = Pp fn lr lc R := by
  rw [Pp_eq_sum]
  exact iter_blocks (pT fn lr lc R) (bP fn lr lc R) fun j => by unfold bP; rw [dif_pos j.isLt]
theorem iter_bN (R : Fin 8192) : iter (bN fn lr lc R) 0 16 = Nn fn lr lc R := by
  rw [Nn_eq_sum]
  exact iter_blocks (nT fn lr lc R) (bN fn lr lc R) fun j => by unfold bN; rw [dif_pos j.isLt]

end Terms

/-! ## A block's entries are the full matrix's -/

/-- With the row block holding rows 1024 I .. of the array and the column block rows 512 J .., entry (r, s) of the tile
    is entry (row I r, col J s) of the full matrix of exponentials. -/
theorem eBlk_eq (i : grid1.Coords) (I : Fin 8) (J : Fin 16) (hi0 : (i 0).val = I.val) (hi1 : (i 1).val = J.val)
    (q : Vec Ideal S1024x512 .bf16) (k : Vec Ideal S512x512 .bf16) (fn : S8192x512.Idx → EReal)
    (hq : ∀ (r : Fin 1024) (k' : Fin 512), q (ix2 r k') = fn (ix2 (row I r) k'))
    (hk : ∀ (s : Fin 512) (k' : Fin 512), k (ix2 s k') = fn (ix2 (col J s) k'))
    (r : Fin 1024) (s : Fin 512) : eBlk i q k r s = Ee fn (row I r) (col J s) := by
  unfold eBlk Ee Sm
  refine if_congr ?_ rfl ?_
  · rw [hi0, hi1]
    exact ⟨fun h => Fin.ext h, fun h => congrArg Fin.val h⟩
  · refine congrArg (fun z => Ideal.exp (z * kap)) (Finset.sum_congr rfl fun k' _ => ?_)
    rw [hq, hk]

/-- and the tile's mask is the full mask there. -/
theorem mBlk_iff (i : grid1.Coords) (I : Fin 8) (J : Fin 16) (hi0 : (i 0).val = I.val) (hi1 : (i 1).val = J.val)
    (lr : Vec Ideal S1024x1 .i32) (lc : Vec Ideal S1x512 .i32) (LR : S8192x1.Idx → BitVec 32) (LC : S1x8192.Idx → BitVec 32)
    (hlr : ∀ r : Fin 1024, lr (ix2 r (0 : Fin 1)) = LR (ix2 (row I r) (0 : Fin 1)))
    (hlc : ∀ s : Fin 512, lc (ix2 (0 : Fin 1) s) = LC (ix2 (0 : Fin 1) (col J s)))
    (r : Fin 1024) (s : Fin 512) :
    mBlk i lr lc r s ↔ (LR (ix2 (row I r) (0 : Fin 1)) = LC (ix2 (0 : Fin 1) (col J s)) ∧ row I r ≠ col J s) := by
  unfold mBlk
  rw [hlr, hlc, hi0, hi1]
  exact and_congr Iff.rfl (not_congr ⟨fun h => Fin.ext h, fun h => congrArg Fin.val h⟩)

/-! ## The windows' blocks as parts of their arrays -/

variable (V : (c : Dev nD) → (b : Ref sig .tc) → Buf (Elt Ideal) ((c : Thread nD τ).loc b))

/-- The grid's coordinates and the printed index maps over the 128 points: point t is (t / 16, t % 16); the row-side
    windows and the output follow the first coordinate, the column-side windows the second. -/
theorem idx_facts1 : ∀ t : Fin cfg1.N,
    (grid1.coords t 0).val = t.val / 16 ∧ (grid1.coords t 1).val = t.val % 16
    ∧ win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0 :=
  (by decide +kernel : ∀ t : Fin grid1.N, _)

theorem blk1_0_apply (c : Dev nD) (t : Fin cfg1.N) (x : S1024x512.Idx) (i : S8192x512.Idx)
    (h0 : (i 0).val = 1024 * (t.val / 16) + (x 0).val) (h1 : (i 1).val = (x 1).val) :
    (blk1 V c 0 t : Vec Ideal S1024x512 .bf16) x = (V c main_v0 : S8192x512.Idx → EReal) i := by
  obtain ⟨-, -, e0, e1, -⟩ := idx_facts1 t
  unfold blk1
  rw [View.read_apply]
  show V c main_v0 _ = V c main_v0 _
  refine congrArg (V c main_v0) ?_
  funext a
  apply Fin.ext
  match a with
  | ⟨0, _⟩ => show win1_0.index t (0 : Fin 2) * 1024 + 1 * (x 0).val = (i 0).val; rw [e0, h0]; omega
  | ⟨1, _⟩ => show win1_0.index t (1 : Fin 2) * 512 + 1 * (x 1).val = (i 1).val; rw [e1, h1]; omega

theorem blk1_1_apply (c : Dev nD) (t : Fin cfg1.N) (x : S512x512.Idx) (i : S8192x512.Idx)
    (h0 : (i 0).val = 512 * (t.val % 16) + (x 0).val) (h1 : (i 1).val = (x 1).val) :
    (blk1 V c 1 t : Vec Ideal S512x512 .bf16) x = (V c main_v0 : S8192x512.Idx → EReal) i := by
  obtain ⟨-, -, -, -, e0, e1, -⟩ := idx_facts1 t
  unfold blk1
  rw [View.read_apply]
  show V c main_v0 _ = V c main_v0 _
  refine congrArg (V c main_v0) ?_
  funext a
  apply Fin.ext
  match a with
  | ⟨0, _⟩ => show win1_1.index t (0 : Fin 2) * 512 + 1 * (x 0).val = (i 0).val; rw [e0, h0]; omega
  | ⟨1, _⟩ => show win1_1.index t (1 : Fin 2) * 512 + 1 * (x 1).val = (i 1).val; rw [e1, h1]; omega

theorem blk1_2_apply (c : Dev nD) (t : Fin cfg1.N) (x : S1024x1.Idx) (i : S8192x1.Idx)
    (h0 : (i 0).val = 1024 * (t.val / 16) + (x 0).val) (h1 : (i 1).val = (x 1).val) :
    (blk1 V c 2 t : Vec Ideal S1024x1 .i32) x = (V c main_v1 : S8192x1.Idx → BitVec 32) i := by
  obtain ⟨-, -, -, -, -, -, e0, e1, -⟩ := idx_facts1 t
  unfold blk1
  rw [View.read_apply]
  show V c main_v1 _ = V c main_v1 _
  refine congrArg (V c main_v1) ?_
  funext a
  apply Fin.ext
  match a with
  | ⟨0, _⟩ => show win1_2.index t (0 : Fin 2) * 1024 + 1 * (x 0).val = (i 0).val; rw [e0, h0]; omega
  | ⟨1, _⟩ => show win1_2.index t (1 : Fin 2) * 1 + 1 * (x 1).val = (i 1).val; rw [e1, h1]; omega

theorem blk1_3_apply (c : Dev nD) (t : Fin cfg1.N) (x : S1x512.Idx) (i : S1x8192.Idx)
    (h0 : (i 0).val = (x 0).val) (h1 : (i 1).val = 512 * (t.val % 16) + (x 1).val) :
    (blk1 V c 3 t : Vec Ideal S1x512 .i32) x = (V c main_v2 : S1x8192.Idx → BitVec 32) i := by
  obtain ⟨-, -, -, -, -, -, -, -, e0, e1, -⟩ := idx_facts1 t
  unfold blk1
  rw [View.read_apply]
  show V c main_v2 _ = V c main_v2 _
  refine congrArg (V c main_v2) ?_
  funext a
  apply Fin.ext
  match a with
  | ⟨0, _⟩ => show win1_3.index t (0 : Fin 2) * 1 + 1 * (x 0).val = (i 0).val; rw [e0, h0]; omega
  | ⟨1, _⟩ => show win1_3.index t (1 : Fin 2) * 512 + 1 * (x 1).val = (i 1).val; rw [e1, h1]; omega

/-! ## One point's update of the two columns, in the full matrix's terms -/

/-- At point t = (I, J) the body adds, at row r, the part of column block J of row (row I r)'s two sums. -/
theorem point_step (c : Dev nD) (t : Fin cfg1.N) (I : Fin 8) (J : Fin 16) (hI : t.val / 16 = I.val) (hJ : t.val % 16 = J.val)
    (p n : Vec Ideal S1024x1 .f32) (r : Fin 1024) :
    stepP (grid1.coords t) (blk1 V c 0 t) (blk1 V c 1 t) (blk1 V c 2 t) (blk1 V c 3 t) p (ix2 r (0 : Fin 1))
        = p (ix2 r (0 : Fin 1)) + ∑ s : Fin 512, pT (V c main_v0) (V c main_v1) (V c main_v2) (row I r) (col J s)
    ∧ stepN (grid1.coords t) (blk1 V c 0 t) (blk1 V c 1 t) (blk1 V c 2 t) (blk1 V c 3 t) n (ix2 r (0 : Fin 1))
        = n (ix2 r (0 : Fin 1)) + ∑ s : Fin 512, nT (V c main_v0) (V c main_v1) (V c main_v2) (row I r) (col J s) := by
  obtain ⟨g0, g1, -⟩ := idx_facts1 t
  have hi0 : (grid1.coords t 0).val = I.val := g0.trans hI
  have hi1 : (grid1.coords t 1).val = J.val := g1.trans hJ
  have hq : ∀ (r : Fin 1024) (k' : Fin 512), (blk1 V c 0 t : Vec Ideal S1024x512 .bf16) (ix2 r k') = (V c main_v0 : S8192x512.Idx → EReal) (ix2 (row I r) k') :=
    fun r k' => blk1_0_apply V c t (ix2 r k') (ix2 (row I r) k') (by show 1024 * I.val + r.val = 1024 * (t.val / 16) + r.val; rw [hI]) rfl
  have hk : ∀ (s : Fin 512) (k' : Fin 512), (blk1 V c 1 t : Vec Ideal S512x512 .bf16) (ix2 s k') = (V c main_v0 : S8192x512.Idx → EReal) (ix2 (col J s) k') :=
    fun s k' => blk1_1_apply V c t (ix2 s k') (ix2 (col J s) k') (by show 512 * J.val + s.val = 512 * (t.val % 16) + s.val; rw [hJ]) rfl
  have hlr : ∀ r : Fin 1024, (blk1 V c 2 t : Vec Ideal S1024x1 .i32) (ix2 r (0 : Fin 1)) = (V c main_v1 : S8192x1.Idx → BitVec 32) (ix2 (row I r) (0 : Fin 1)) :=
    fun r => blk1_2_apply V c t (ix2 r (0 : Fin 1)) (ix2 (row I r) (0 : Fin 1)) (by show 1024 * I.val + r.val = 1024 * (t.val / 16) + r.val; rw [hI]) rfl
  have hlc : ∀ s : Fin 512, (blk1 V c 3 t : Vec Ideal S1x512 .i32) (ix2 (0 : Fin 1) s) = (V c main_v2 : S1x8192.Idx → BitVec 32) (ix2 (0 : Fin 1) (col J s)) :=
    fun s => blk1_3_apply V c t (ix2 (0 : Fin 1) s) (ix2 (0 : Fin 1) (col J s)) rfl (by show 512 * J.val + s.val = 512 * (t.val % 16) + s.val; rw [hJ])
  constructor
  · refine (stepP_apply (grid1.coords t) (blk1 V c 0 t) (blk1 V c 1 t) (blk1 V c 2 t) (blk1 V c 3 t) p r).trans ?_
    refine congrArg (p (ix2 r (0 : Fin 1)) + ·) (Finset.sum_congr rfl fun s _ => ?_)
    exact if_congr (mBlk_iff (grid1.coords t) I J hi0 hi1 (blk1 V c 2 t) (blk1 V c 3 t) (V c main_v1) (V c main_v2) hlr hlc r s)
      (eBlk_eq (grid1.coords t) I J hi0 hi1 (blk1 V c 0 t) (blk1 V c 1 t) (V c main_v0) hq hk r s) rfl
  · refine (stepN_apply (grid1.coords t) (blk1 V c 0 t) (blk1 V c 1 t) (blk1 V c 2 t) (blk1 V c 3 t) n r).trans ?_
    refine congrArg (n (ix2 r (0 : Fin 1)) + ·) (Finset.sum_congr rfl fun s _ => ?_)
    exact if_congr (mBlk_iff (grid1.coords t) I J hi0 hi1 (blk1 V c 2 t) (blk1 V c 3 t) (V c main_v1) (V c main_v2) hlr hlc r s)
      rfl (eBlk_eq (grid1.coords t) I J hi0 hi1 (blk1 V c 0 t) (blk1 V c 1 t) (V c main_v0) hq hk r s)

/-! ## The running columns along a row block -/

/-- What a point's update starts from: zero at the first column block of a row block, the columns so far elsewhere. -/
def start (c : Dev nD) (t : ℕ) : Vec Ideal S1024x1 .f32 × Vec Ideal S1024x1 .f32 :=
  if t % 16 = 0 then (k1_pay4 (F := Ideal), k1_pay5 (F := Ideal)) else acc V c t

/-- The recursion of the running columns, one step. -/
theorem acc_succ (c : Dev nD) (t : Fin cfg1.N) : acc V c (t.val + 1) =
    (stepP (grid1.coords t) (blk1 V c 0 t) (blk1 V c 1 t) (blk1 V c 2 t) (blk1 V c 3 t) (start V c t.val).1,
     stepN (grid1.coords t) (blk1 V c 0 t) (blk1 V c 1 t) (blk1 V c 2 t) (blk1 V c 3 t) (start V c t.val).2) := by
  obtain ⟨t, h⟩ := t
  show acc V c (t + 1) = _
  rw [acc, dif_pos h]
  rfl

/-- One more column block: if the update at point 16 I + j starts from the sums of the first j blocks, it leaves the
    sums of the first j + 1. -/
theorem acc_row_step (c : Dev nD) (I : Fin 8) (r : Fin 1024) (j : ℕ) (hj : j < 16)
    (hp : (start V c (16 * I.val + j)).1 (ix2 r (0 : Fin 1)) = iter (bP (V c main_v0) (V c main_v1) (V c main_v2) (row I r)) 0 j)
    (hn : (start V c (16 * I.val + j)).2 (ix2 r (0 : Fin 1)) = iter (bN (V c main_v0) (V c main_v1) (V c main_v2) (row I r)) 0 j) :
    (acc V c (16 * I.val + j + 1)).1 (ix2 r (0 : Fin 1)) = iter (bP (V c main_v0) (V c main_v1) (V c main_v2) (row I r)) 0 (j + 1)
    ∧ (acc V c (16 * I.val + j + 1)).2 (ix2 r (0 : Fin 1)) = iter (bN (V c main_v0) (V c main_v1) (V c main_v2) (row I r)) 0 (j + 1) := by
  have hN : cfg1.N = 128 := N_1
  have hI : I.val < 8 := I.isLt
  have ht : 16 * I.val + j < cfg1.N := by rw [hN]; omega
  have e := acc_succ V c ⟨16 * I.val + j, ht⟩
  obtain ⟨hP, hQ⟩ := point_step V c ⟨16 * I.val + j, ht⟩ I ⟨j, hj⟩
    (by show (16 * I.val + j) / 16 = I.val; omega) (by show (16 * I.val + j) % 16 = j; omega)
    (start V c (16 * I.val + j)).1 (start V c (16 * I.val + j)).2 r
  have eP : bP (V c main_v0) (V c main_v1) (V c main_v2) (row I r) j
      = ∑ s : Fin 512, pT (V c main_v0) (V c main_v1) (V c main_v2) (row I r) (col ⟨j, hj⟩ s) := by unfold bP; rw [dif_pos hj]
  have eN : bN (V c main_v0) (V c main_v1) (V c main_v2) (row I r) j
      = ∑ s : Fin 512, nT (V c main_v0) (V c main_v1) (V c main_v2) (row I r) (col ⟨j, hj⟩ s) := by unfold bN; rw [dif_pos hj]
  show (acc V c ((⟨16 * I.val + j, ht⟩ : Fin cfg1.N).val + 1)).1 (ix2 r (0 : Fin 1)) = _ ∧ (acc V c ((⟨16 * I.val + j, ht⟩ : Fin cfg1.N).val + 1)).2 (ix2 r (0 : Fin 1)) = _
  rw [e]
  refine ⟨hP.trans ?_, hQ.trans ?_⟩
  · rw [hp, ← eP]; rfl
  · rw [hn, ← eN]; rfl

/-- After the first j + 1 column blocks of row block I the two columns hold, at row r, the sums of those blocks' parts. -/
theorem acc_row (c : Dev nD) (I : Fin 8) (r : Fin 1024) (j : ℕ) (hj : j < 16) :
    (acc V c (16 * I.val + j + 1)).1 (ix2 r (0 : Fin 1)) = iter (bP (V c main_v0) (V c main_v1) (V c main_v2) (row I r)) 0 (j + 1)
    ∧ (acc V c (16 * I.val + j + 1)).2 (ix2 r (0 : Fin 1)) = iter (bN (V c main_v0) (V c main_v1) (V c main_v2) (row I r)) 0 (j + 1) := by
  induction j with
  | zero =>
    refine acc_row_step V c I r 0 hj ?_ ?_
    · unfold start; rw [if_pos (by omega)]; exact pay4_apply (ix2 r (0 : Fin 1))
    · unfold start; rw [if_pos (by omega)]; exact pay5_apply (ix2 r (0 : Fin 1))
  | succ j ih =>
    obtain ⟨ihp, ihn⟩ := ih (by omega)
    refine acc_row_step V c I r (j + 1) hj ?_ ?_
    · unfold start; rw [if_neg (by omega)]; exact ihp
    · unfold start; rw [if_neg (by omega)]; exact ihn

/-- After all 16 column blocks: the whole row sums. -/
theorem acc_row_full (c : Dev nD) (I : Fin 8) (r : Fin 1024) :
    (acc V c (16 * I.val + 15 + 1)).1 (ix2 r (0 : Fin 1)) = Pp (V c main_v0) (V c main_v1) (V c main_v2) (row I r)
    ∧ (acc V c (16 * I.val + 15 + 1)).2 (ix2 r (0 : Fin 1)) = Nn (V c main_v0) (V c main_v1) (V c main_v2) (row I r) := by
  obtain ⟨hp, hn⟩ := acc_row V c I r 15 (by omega)
  exact ⟨hp.trans (iter_bP _ _ _ _), hn.trans (iter_bN _ _ _ _)⟩

/-! ## From blocks to the output array -/

/-- What the body leaves in the output window's buffer. -/
theorem after1_4_at (c : Dev nD) (t : Fin cfg1.N) :
    (dat1 V c).after 4 t = lossBlock (acc V c (t.val + 1)).1 (acc V c (t.val + 1)).2 := by dsimp only [dat1]

/-- The loss block of the finished columns of row block I, at row r, is the loss of row (row I r). -/
theorem lossBlock_row (c : Dev nD) (I : Fin 8) (y : S1024x1.Idx) :
    lossBlock (acc V c (16 * I.val + 15 + 1)).1 (acc V c (16 * I.val + 15 + 1)).2 y
      = lossRows (V c main_v0) (V c main_v1) (V c main_v2) (ix2 (row I (y 0)) (0 : Fin 1)) := by
  obtain ⟨r, u, rfl⟩ : ∃ (r : Fin 1024) (u : Fin 1), y = ix2 r u := ⟨y 0, y 1, eq_ix2 y⟩
  obtain rfl : u = 0 := Subsingleton.elim _ _
  obtain ⟨hp, hn⟩ := acc_row_full V c I r
  rw [lossBlock_apply, lossRows_apply, hp, hn]

/-- What a point of the last column block writes back is its block of the loss of the three arrays. -/
theorem flushed1_4_eq (c : Dev nD) (t : Fin cfg1.N) (hf : (cfg1.win 4).flush t = true) :
    (dat1 V c).flushed 4 t = ((cfg1.win 4).blk t).view.read (Elt Ideal) (lossRows (V c main_v0) (V c main_v1) (V c main_v2)) := by
  have h15 : t.val % 16 = 15 := (flush1_4 t).mp hf
  have hN : cfg1.N = 128 := N_1
  have htl : t.val < 128 := by have := t.isLt; omega
  show (cfg1.win 4).cut (grid1.coords t) ((dat1 V c).after 4 t) = _
  rw [after1_4_at]
  obtain ⟨-, -, -, -, -, -, -, -, -, -, e0, e1⟩ := idx_facts1 t
  have ht : t.val = 16 * (⟨t.val / 16, by omega⟩ : Fin 8).val + 15 := by show t.val = 16 * (t.val / 16) + 15; omega
  funext y
  show lossBlock (acc V c (t.val + 1)).1 (acc V c (t.val + 1)).2 y
    = lossRows (V c main_v0) (V c main_v1) (V c main_v2) (((cfg1.win 4).blk t).view.emb y)
  rw [ht]
  refine (lossBlock_row V c ⟨t.val / 16, by omega⟩ y).trans (congrArg (lossRows (V c main_v0) (V c main_v1) (V c main_v2)) ?_)
  funext a
  apply Fin.ext
  match a with
  | ⟨0, _⟩ => show 1024 * (t.val / 16) + (y 0).val = win1_4.index t (0 : Fin 2) * 1024 + 1 * (y 0).val; rw [e0]; omega
  | ⟨1, _⟩ =>
    show 0 = win1_4.index t (1 : Fin 2) * 1 + 1 * (y 1).val
    have hy1 : (y 1).val < 1 := (y 1).isLt
    rw [e1]; omega

/-- An index of the output array is in point t's block iff each coordinate is in the block's range on its axis. -/
theorem mem_blk1_4 (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v3).slice (win1_4.rect t)).set ↔ _
  rw [View.set_slice_whole, Rect.mem_set_unit]
  exact Iff.rfl

/-- Row R of the output array is covered by the last point of its row block, 16 (R / 1024) + 15, which writes back. -/
theorem cover1_arr (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 128 := N_1
  have hlt : 16 * ((i 0).val / 1024) + 15 < cfg1.N := by rw [hN]; omega
  refine ⟨⟨16 * ((i 0).val / 1024) + 15, hlt⟩, (flush1_4 _).mpr (by show (16 * ((i 0).val / 1024) + 15) % 16 = 15; omega), ?_⟩
  rw [mem_blk1_4]
  obtain ⟨-, -, -, -, -, -, -, -, -, -, e0, e1⟩ := idx_facts1 ⟨16 * ((i 0).val / 1024) + 15, hlt⟩
  intro a
  match a with
  | ⟨0, _⟩ =>
    show win1_4.index _ (0 : Fin 2) * 1024 ≤ (i 0).val ∧ (i 0).val < win1_4.index _ (0 : Fin 2) * 1024 + 1024
    rw [e0]; show (16 * ((i 0).val / 1024) + 15) / 16 * 1024 ≤ (i 0).val ∧ (i 0).val < (16 * ((i 0).val / 1024) + 15) / 16 * 1024 + 1024; omega
  | ⟨1, _⟩ =>
    show win1_4.index _ (1 : Fin 2) * 1 ≤ (i 1).val ∧ (i 1).val < win1_4.index _ (1 : Fin 2) * 1 + 1
    rw [e1]; omega

/-- The output array after region 1: the loss of every row, from the three arrays as the region finds them. -/
theorem arr1_final (c : Dev nD) : (dat1 V c).arrAt 4 cfg1.N = lossRows (V c main_v0) (V c main_v1) (V c main_v2) :=
  (dat1 V c).arrAt_eq_of_cover 4 (lossRows (V c main_v0) (V c main_v1) (V c main_v2)) (fun t hf => flushed1_4_eq V c t hf) cover1_arr

end Cert.KernelIdeal.Hand

end
-- ==== Proof.RefIsSpec.lean ====
/-
  The reference program's result is the specification's mean loss `G`.

  The reference normalises the rows of the features, multiplies the normalised matrix by its transpose, divides by the
  temperature, exponentiates, zeroes the diagonal, weights every entry by a 0/1 mask of equal labels off the diagonal and by
  one minus that mask, sums each weighting along the rows, and averages  -log (p / (p + n + eps))  over the rows. Each
  stage is read at an index given by its coordinates and identified with the specification's function of that name:
  the clamped norm, the normalised rows, the similarities, the exponentials with the diagonal removed, the mask, the
  two row sums, the loss, the mean. The steps that are not a mere reading: a row number and a column number below 8192
  are equal as 32-bit words exactly when they are equal; a product with the mask's 1 keeps an entry and with its 0
  removes it, so the two weighted sums are the two selections; dividing by the temperature's float is multiplying by the
  inverse temperature; and the negation of the logarithm is its difference from zero.
-/
import proofs.«110256_j13761075216965_2_alg».proof.Proof.Gen.ReferenceIdeal.Read
import proofs.«110256_j13761075216965_2_alg».proof.Proof.Spec
import proofs.«110256_j13761075216965_2_alg».proof.KernelIdeal

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem
open scoped BigOperators

variable (x : (⟨S8192x512, .f32⟩ : BufTy).Contents (Elt Ideal)) (lab : (⟨S8192, .i32⟩ : BufTy).Contents (Elt Ideal))

/-! ## The index maps of the layout operations, at an index given by its coordinates -/

theorem idx_sq (R : Fin 8192) (k : Fin 512) : idx_main_call0_v1 (ix1 R) k = ix2 R k :=
  funext fun a => Fin.ext (by match a with | ⟨0, _⟩ => rfl | ⟨1, _⟩ => rfl)
theorem idx_col (R : Fin 8192) (z : Fin 1) : idx_main_call0_v2 (ix2 R z) = ix1 R :=
  funext fun a => Fin.ext (by match a with | ⟨0, _⟩ => rfl)
theorem idx_row (R : Fin 8192) (k : Fin 512) : idx_main_v3 (ix2 R k) = ix2 R (0 : Fin 1) :=
  funext fun a => Fin.ext (by match a with | ⟨0, _⟩ => rfl | ⟨1, _⟩ => rfl)
theorem idx_tr (k : Fin 512) (C : Fin 8192) : idx_main_v5 (ix2 k C) = ix2 C k :=
  funext fun a => Fin.ext (by match a with | ⟨0, _⟩ => rfl | ⟨1, _⟩ => rfl)
theorem idx_lhs (R C : Fin 8192) (k : Fin 512) : lidx_main_v6 (ix2 R C) k = ix2 R k :=
  funext fun a => Fin.ext (by match a with | ⟨0, _⟩ => rfl | ⟨1, _⟩ => rfl)
theorem idx_rhs (R C : Fin 8192) (k : Fin 512) : ridx_main_v6 (ix2 R C) k = ix2 k C :=
  funext fun a => Fin.ext (by match a with | ⟨0, _⟩ => rfl | ⟨1, _⟩ => rfl)
theorem idx_labrow (R C : Fin 8192) : idx_main_v9 (idx_main_v11 (ix2 R C)) = ix1 R :=
  funext fun a => Fin.ext (by match a with | ⟨0, _⟩ => rfl)
theorem idx_labcol (R C : Fin 8192) : idx_main_v10 (idx_main_v12 (ix2 R C)) = ix1 C :=
  funext fun a => Fin.ext (by match a with | ⟨0, _⟩ => rfl)
theorem idx_pos (R C : Fin 8192) : idx_main_v24 (ix1 R) C = ix2 R C :=
  funext fun a => Fin.ext (by match a with | ⟨0, _⟩ => rfl | ⟨1, _⟩ => rfl)
theorem idx_neg (R C : Fin 8192) : idx_main_v28 (ix1 R) C = ix2 R C :=
  funext fun a => Fin.ext (by match a with | ⟨0, _⟩ => rfl | ⟨1, _⟩ => rfl)

/-! ## The stages -/

/-- The clamped norm of row R. -/
theorem norm_eq (R : Fin 8192) (z : Fin 1) : val_main_v2 (F := Ideal) x (ix2 R z) = Cert.Spec.nrm x R := by
  rw [val_main_v2_apply, val_main_v0_apply, val_main_v1_apply, val_main_cst_apply, val_main_call0_v2_apply, idx_col,
    val_main_call0_v1_apply, val_main_call0_cst_apply]
  simp only [val_main_call0_v0_apply, idx_sq, Ideal.maximumf_def, Ideal.hostUnary_sqrt_def, Ideal.ofBits_def,
    Ideal.ofBits_zero_f32, Ideal.mulf_def, zero_add]
  rfl

/-- The normalised rows. -/
theorem f_eq (R : Fin 8192) (k : Fin 512) : val_main_v4 (F := Ideal) x (ix2 R k) = Cert.Spec.f x R k := by
  rw [val_main_v4_apply, val_main_v3_apply, idx_row, norm_eq, Ideal.hostDivf_def]
  rfl

/-- The similarities. -/
theorem S_eq (R C : Fin 8192) : val_main_v6 (F := Ideal) x (ix2 R C) = Cert.Spec.S x R C := by
  rw [val_main_v6_apply]
  refine Finset.sum_congr rfl fun k _ => ?_
  rw [val_main_v5_apply, idx_lhs, idx_rhs, idx_tr, f_eq, f_eq]

/-! ## The diagonal and the label mask -/

/-- Row and column numbers below 8192 are equal as 32-bit words exactly when they are equal. -/
theorem diag_eq (R C : Fin 8192) : val_main_v19 (F := Ideal) (ix2 R C) = if R = C then 1#1 else 0#1 := by
  rw [val_main_v19_apply, val_main_v18_apply, val_main_v15_apply, val_main_v16_apply, val_main_v17_apply, val_main_c_apply]
  show BitVec.ofBool (BitVec.ofNat 32 R.val + 0#32 == BitVec.ofNat 32 C.val) = _
  rw [BitVec.add_zero]
  by_cases h : R = C
  · subst h; simp
  · rw [if_neg h]
    have hne : BitVec.ofNat 32 R.val ≠ BitVec.ofNat 32 C.val := by
      intro e
      have e' := congrArg BitVec.toNat e
      rw [BitVec.toNat_ofNat, BitVec.toNat_ofNat] at e'
      have hR := R.isLt; have hC := C.isLt
      exact h (Fin.ext (by omega))
    have hb : (BitVec.ofNat 32 R.val == BitVec.ofNat 32 C.val) = false := beq_eq_false_iff_ne.mpr hne
    rw [hb]; rfl

/-- The exponentials with the diagonal removed. -/
theorem E_eq (R C : Fin 8192) : val_main_v22 (F := Ideal) x (ix2 R C) = Cert.Spec.E x R C := by
  rw [val_main_v22_apply, diag_eq, val_main_call2_v1_apply, val_main_call2_v0_apply, val_main_cst_2_apply,
    val_main_v21_apply, val_main_v8_apply, val_main_v7_apply, val_main_cst_0_apply, S_eq]
  simp only [Ideal.ofBits_def, Ideal.ofBits_zero_f32, Ideal.hostUnary_exp_def, Ideal.hostDivf_def, Cert.Spec.div_temperature]
  unfold Cert.Spec.E Scalar.select
  by_cases h : R = C
  · rw [if_pos h, if_pos h]; exact if_pos rfl
  · rw [if_neg h, if_neg h]; exact if_neg (by decide)

/-- The mask: 1 where the labels agree off the diagonal, 0 elsewhere. -/
theorem mask_eq (R C : Fin 8192) :
    val_main_v20 (F := Ideal) lab (ix2 R C) = if lab (ix1 R) = lab (ix1 C) ∧ R ≠ C then 1 else 0 := by
  rw [val_main_v20_apply, diag_eq, val_main_call1_v1_apply, val_main_call1_v0_apply, val_main_cst_1_apply,
    val_main_v14_apply, val_main_v13_apply, val_main_v11_apply, val_main_v9_apply, val_main_v12_apply, val_main_v10_apply,
    idx_labrow, idx_labcol]
  simp only [Ideal.ofBits_def, Ideal.ofBits_zero_f32]
  unfold Scalar.select
  by_cases h : R = C
  · rw [if_pos h, if_neg (show ¬(lab (ix1 R) = lab (ix1 C) ∧ R ≠ C) from fun hh => hh.2 h)]; exact if_pos rfl
  · rw [if_neg h, if_neg (show ¬((0#1 : BitVec 1) = 1) by decide)]
    show (((BitVec.ofBool (lab (ix1 R) == lab (ix1 C))).toNat : ℝ) : EReal) = _
    by_cases hl : lab (ix1 R) = lab (ix1 C)
    · rw [if_pos ⟨hl, h⟩, hl]; simp
    · rw [if_neg (fun hh => hl hh.1)]; simp [hl]

/-! ## The row sums, the loss and the mean -/

/-- Row R's sum over the other rows with its label: the mask's 1 keeps an entry, its 0 removes it. -/
theorem P_eq (R : Fin 8192) : val_main_v24 (F := Ideal) x lab (ix1 R) = Cert.Spec.P x lab R := by
  rw [val_main_v24_apply, val_main_cst_3_apply]
  simp only [Ideal.ofBits_def, Ideal.ofBits_zero_f32, zero_add]
  unfold Cert.Spec.P
  refine Finset.sum_congr rfl fun C _ => ?_
  rw [idx_pos, val_main_v23_apply, E_eq, mask_eq, Ideal.mulf_def]
  by_cases h : lab (ix1 R) = lab (ix1 C) ∧ R ≠ C
  · rw [if_pos h, if_pos h, mul_one]
  · rw [if_neg h, if_neg h, mul_zero]

/-- Row R's sum over everything else: one minus the mask. -/
theorem N_eq (R : Fin 8192) : val_main_v28 (F := Ideal) x lab (ix1 R) = Cert.Spec.N x lab R := by
  rw [val_main_v28_apply, val_main_cst_5_apply]
  simp only [Ideal.ofBits_def, Ideal.ofBits_zero_f32, zero_add]
  unfold Cert.Spec.N
  refine Finset.sum_congr rfl fun C _ => ?_
  rw [idx_neg, val_main_v27_apply, E_eq, val_main_v26_apply, val_main_v25_apply, val_main_cst_4_apply, mask_eq,
    Ideal.mulf_def, Ideal.subf_def, Ideal.ofBits_def, Cert.Spec.ofBits_one]
  by_cases h : lab (ix1 R) = lab (ix1 C) ∧ R ≠ C
  · rw [if_pos h, if_pos h, Cert.Spec.one_sub_one, mul_zero]
  · rw [if_neg h, if_neg h, Cert.Spec.one_sub_zero, mul_one]

/-- Row R's loss. -/
theorem loss_eq (R : Fin 8192) : val_main_v34 (F := Ideal) x lab (ix1 R) = Cert.Spec.loss x lab R := by
  rw [val_main_v34_apply, val_main_v33_apply, val_main_v32_apply, val_main_v31_apply, val_main_v29_apply,
    val_main_v30_apply, val_main_cst_6_apply, P_eq, N_eq]
  simp only [Ideal.hostNegf_def, Ideal.negf_def, Ideal.hostUnary_log_def, Ideal.hostDivf_def, Ideal.addf_def,
    Ideal.ofBits_def]
  rw [← Cert.Spec.zero_sub_eq_neg]
  rfl

/-- The reference's result, a rank-0 array, holds the mean loss. -/
theorem ref_is_spec : val_main_v36 (F := Ideal) x lab = fun _ => Cert.Spec.G x lab := by
  funext i
  rw [val_main_v36_apply, val_main_v35_apply, val_main_cst_7_apply, val_main_cst_8_apply, Cert.Spec.sum_idx1]
  simp only [loss_eq, Ideal.hostDivf_def, Ideal.ofBits_def, Ideal.ofBits_zero_f32, zero_add]
  rfl

/-- The same about the run's result buffer: whatever memory the reference starts from, its result is the mean loss of
    the two argument arrays found there. -/
theorem res_is_spec (m : (ℓ : Loc nD τ sig) → Buf (Elt Ideal) ℓ) (c : Dev nD) :
    Cert.ReferenceIdeal.Value.res_main_v36 m c
      = fun _ => Cert.Spec.G (m ((c.tc : Thread nD τ).loc main_arg0)) (m ((c.tc : Thread nD τ).loc main_arg1)) :=
  (val_main_v36_eq m c).trans (ref_is_spec _ _)

/-- The kernel's named scale factor denotes the inverse temperature. -/
theorem named_inv_temperature :
    Named.named (F := Ideal) Cert.KernelIdeal.κ "inv_temperature" (φ := .f32) 0x41649249#32 = Cert.Spec.κ :=
  IdealRules.named_const.ideal_named_scalar _ _ _ _ rfl

end Cert.ReferenceIdeal.RefValue

end
-- ==== Proof.Bridge.lean ====
/-
  The kernel's arrangement of the loss is the specification's.

  The second region's column of row losses is stated over three arrays: the normalised rows, and the labels laid out as
  a column and as a row. When the first array is the row normalisation of the features and the other two are the two
  reshapes of one label array, the inner products are the specification's similarities, the named scale factor is the
  inverse temperature, a reshape of [8192] to [8192, 1] read at (R, 0) and to [1, 8192] read at (0, C) is the label
  array at R and at C, and so the column at row R is the specification's loss of row R. The sum of a column over both of
  its axes is the sum over its rows, so the program's last two operations, the sum from zero and the division by the
  number of rows, give the mean loss.
-/
import proofs.«110256_j13761075216965_2_alg».proof.Proof.LossRows
import proofs.«110256_j13761075216965_2_alg».proof.Proof.Spec
import proofs.«110256_j13761075216965_2_alg».proof.Proof.RefIsSpec
import proofs.«110256_j13761075216965_2_alg».proof.Proof.Region0Value
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The two reshapes of the labels -/

/-- The labels as a column, at row `R`. -/
theorem labels_col (lab : S8192.Idx → BitVec 32) (R : Fin 8192) :
    shapeCast S8192x1 lab shapeCasts_S8192_S8192x1 (ix2 R (0 : Fin 1)) = lab (ix1 R) := by
  refine shapeCast_apply _ shapeCasts_S8192_S8192x1 (ix2 R (0 : Fin 1)) (ix1 R) ?_
  rw [Shape.rowMajor_val_one, Shape.rowMajor_val_two]
  show R.val = R.val * 1 + 0
  omega

/-- The labels as a row, at column `C`. -/
theorem labels_row (lab : S8192.Idx → BitVec 32) (C : Fin 8192) :
    shapeCast S1x8192 lab shapeCasts_S8192_S1x8192 (ix2 (0 : Fin 1) C) = lab (ix1 C) := by
  refine shapeCast_apply _ shapeCasts_S8192_S1x8192 (ix2 (0 : Fin 1) C) (ix1 C) ?_
  rw [Shape.rowMajor_val_one, Shape.rowMajor_val_two]
  show C.val = 0 * 8192 + C.val
  omega

/-! ## The stages -/

variable (x : S8192x512.Idx → EReal) (lab : S8192.Idx → BitVec 32)

/-- The named scale factor is the inverse temperature. -/
theorem kap_eq : kap = Cert.Spec.κ := Cert.ReferenceIdeal.RefValue.named_inv_temperature

/-- The inner products of the normalised rows are the similarities. -/
theorem Sm_spec (R C : Fin 8192) : Sm (normRows x) R C = Cert.Spec.S x R C := by
  unfold Sm Cert.Spec.S
  refine Finset.sum_congr rfl fun k _ => ?_
  rw [normRows_apply, normRows_apply]
  rfl

theorem Ee_spec (R C : Fin 8192) : Ee (normRows x) R C = Cert.Spec.E x R C := by
  unfold Ee Cert.Spec.E
  rw [Sm_spec, kap_eq]

theorem Pp_spec (R : Fin 8192) :
    Pp (normRows x) (shapeCast S8192x1 lab shapeCasts_S8192_S8192x1) (shapeCast S1x8192 lab shapeCasts_S8192_S1x8192) R
      = Cert.Spec.P x lab R := by
  unfold Pp Cert.Spec.P
  refine Finset.sum_congr rfl fun C _ => ?_
  rw [labels_col, labels_row, Ee_spec]

theorem Nn_spec (R : Fin 8192) :
    Nn (normRows x) (shapeCast S8192x1 lab shapeCasts_S8192_S8192x1) (shapeCast S1x8192 lab shapeCasts_S8192_S1x8192) R
      = Cert.Spec.N x lab R := by
  unfold Nn Cert.Spec.N
  refine Finset.sum_congr rfl fun C _ => ?_
  rw [labels_col, labels_row, Ee_spec]

/-- The column of row losses, of the normalised features and the two reshapes of the labels, at row `R`. -/
theorem lossRows_spec (R : Fin 8192) :
    lossRows (normRows x) (shapeCast S8192x1 lab shapeCasts_S8192_S8192x1) (shapeCast S1x8192 lab shapeCasts_S8192_S1x8192)
      (ix2 R (0 : Fin 1)) = Cert.Spec.loss x lab R := by
  rw [lossRows_apply, Pp_spec, Nn_spec]
  rfl

/-! ## The mean -/

/-- The sum of a column from zero over both of its axes, divided by the number of rows, is the mean loss when the
    column holds the row losses. -/
theorem mean_spec (Lr : S8192x1.Idx → EReal) (h : ∀ R : Fin 8192, Lr (ix2 R (0 : Fin 1)) = Cert.Spec.loss x lab R) :
    Host.divf (F := Ideal)
        (Host.reduceAdd (F := Ideal) Lr (constant (F := Ideal) S_ .f32 0x00000000#32) reducesTo_S8192x1_S_d0_1 h_S_)
        (constant (F := Ideal) S_ .f32 0x46000000#32)
      = fun _ => Cert.Spec.G x lab := by
  funext i
  have hs : Host.reduceAdd (F := Ideal) Lr (constant (F := Ideal) S_ .f32 0x00000000#32) reducesTo_S8192x1_S_d0_1 h_S_ i
      = ∑ R : Fin 8192, Cert.Spec.loss x lab R := by
    simp only [Host.reduceAdd, Ideal.hostReduceAdd_def]
    rw [Ideal.hostReduceAdd_total reducesTo_S8192x1_S_d0_1 (fun b => b.elim0) Lr _ i, sum_idx2]
    simp only [Fin.sum_univ_one, h, constant_apply, Ideal.ofBits_zero_f32, zero_add]
  show Ideal.div (Host.reduceAdd (F := Ideal) Lr (constant (F := Ideal) S_ .f32 0x00000000#32) reducesTo_S8192x1_S_d0_1 h_S_ i)
      (Ideal.ofBits .f32 0x46000000#32) = _
  rw [hs]
  rfl

end Cert.KernelIdeal.Hand

end
-- ==== Proof.KernelValue.lean ====
/-
  The idealized kernel's result as a function of its arguments: the mean, over the 8192 rows, of the loss of the
  two masked exponential sums of the normalised rows — the specification `Cert.Spec.G`. The result buffer is the
  mean of region 1's output array; that array is the loss of the rows region 0 normalised and of the two reshapes
  of the labels; and those losses are the specification's, row by row.
-/
import proofs.«110256_j13761075216965_2_alg».proof.Proof.ReadBack
import proofs.«110256_j13761075216965_2_alg».proof.Proof.Region0Value
import proofs.«110256_j13761075216965_2_alg».proof.Proof.Region1Value
import proofs.«110256_j13761075216965_2_alg».proof.Proof.Bridge

noncomputable section

namespace Cert.KernelIdeal.Hand

open Idealize.ShloMosaic Idealize.ShloMosaic.TcCoe Idealize.ShloMosaic.ValueIdx
open Idealize.SL Idealize.SL.Sem
open Cert.KernelIdeal

variable (m : (ℓ : Loc nD τ sig) → Buf (Elt Ideal) ℓ) (ρ : Dev nD → PrngReg)

/-- Region 1's output array, entry (R, 0), is the specification's loss of row R. -/
theorem losses_spec (c : Dev nD) (R : Fin 8192) :
    (W3 (F := Ideal) m ρ c main_v3 : S8192x1.Idx → EReal) (ix2 R (0 : Fin 1))
      = Cert.Spec.loss (m ((c.tc : Thread nD τ).loc main_arg0)) (m ((c.tc : Thread nD τ).loc main_arg1)) R := by
  rw [show (W3 (F := Ideal) m ρ c main_v3 : S8192x1.Idx → EReal) = (dat1 (F := Ideal) (U2 m ρ) c).arrAt 4 cfg1.N from U3_out m ρ c,
    arr1_final (U2 m ρ) c, U2_rows m ρ c, arr0_final (U0 m ρ) c, U2_labels_col m ρ c, U2_labels_row m ρ c]
  exact lossRows_spec _ _ R

/-- The result buffer at the last boundary holds the specification's value of the two arguments. -/
theorem kernel_value (c : Dev nD) :
    (W4 (F := Ideal) m ρ c main_v5 : S_.Idx → EReal)
      = fun _ => Cert.Spec.G (m ((c.tc : Thread nD τ).loc main_arg0)) (m ((c.tc : Thread nD τ).loc main_arg1)) := by
  rw [W4_result m ρ c]
  exact mean_spec _ _ _ (losses_spec m ρ c)

end Cert.KernelIdeal.Hand

end
-- ==== Proof.Bits.Data.lean ====
/-
  The proof data of the two kernel regions, stated once for any float instance.

  Region 0 normalises each block of 1024 rows: every row is divided by the larger of its Euclidean norm and a
  small constant. Region 1 walks an 8 x 16 grid: point (i, j) multiplies row block i against column block j of the
  normalised rows, scales, exponentiates, removes the diagonal, and adds the row sums of the entries with equal
  labels to one running column and the row sums of the others to a second running column; both columns are reset
  at j = 0 and at j = 15 the row block's loss  -log (p / (p + n + eps))  is stored to the output block.
  The running columns live in two scratch buffers carried from point to point, so the invariant between points
  names their contents: `acc` below, by recursion on the point.
-/
import proofs.«110256_j13761075216965_2_alg».proof.Proof.Gen.Kernel.Launch
import proofs.«110256_j13761075216965_2_alg».proof.Proof.Gen.Kernel.Skeleton
import proofs.«110256_j13761075216965_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: the row normalisation -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 x 512 block, as the rectangle the body loads and stores through. -/
abbrev rA : Rect S1024x512 := Rect.unit (s := S1024x512) ![0, 0] S1024x512.size inb_S1024x512_S1024x512_0_0

/-- What the body leaves in the output block: its one store, of the normalised rows of the input block. -/
def normBlock (x0 : Vec F S1024x512 .f32) : Vec F S1024x512 .bf16 :=
  View.canon [⟨rA, k0_pay1 (View.ld x0 rA)⟩]

/-- The proof data of region 0: the input block stays, the output block holds the normalised rows. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => normBlock (blk0 V c 0 t)
  Φ _ := Pipeline.ΦA spec0 c
  q _ := fullShare
  owed _ := 0

/-! ## Region 1: the masked exponential sums and the loss -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024 x 1 column, as the rectangle the body loads and stores through. -/
abbrev rC : Rect S1024x1 := Rect.unit (s := S1024x1) ![0, 0] S1024x1.size inb_S1024x1_S1024x1_0_0

/-- One point's update of the column of sums over equal labels: the old column plus this block's row sums. -/
def stepP (i : grid1.Coords) (q : Vec F S1024x512 .bf16) (k : Vec F S512x512 .bf16) (lr : Vec F S1024x1 .i32) (lc : Vec F S1x512 .i32)
    (p : Vec F S1024x1 .f32) : Vec F S1024x1 .f32 :=
  k1_pay1 (k1_pay9 i q k lr lc) p

/-- One point's update of the column of sums over unequal labels. -/
def stepN (i : grid1.Coords) (q : Vec F S1024x512 .bf16) (k : Vec F S512x512 .bf16) (lr : Vec F S1024x1 .i32) (lc : Vec F S1x512 .i32)
    (n : Vec F S1024x1 .f32) : Vec F S1024x1 .f32 :=
  k1_pay2 (k1_pay10 i q k lr lc) n

/-- The two running columns after the points below `t`: reset to zero at the first column block of every row
    block, then one update per point. (At `t = 0` nothing has run; the value there is never read.) -/
def acc (c : Dev nD) : ℕ → Vec F S1024x1 .f32 × Vec F S1024x1 .f32
  | 0 => (k1_pay4, k1_pay5)
  | t + 1 =>
    if h : t < cfg1.N then
      let s : Vec F S1024x1 .f32 × Vec F S1024x1 .f32 := if t % 16 = 0 then (k1_pay4, k1_pay5) else acc c t
      (stepP (grid1.coords ⟨t, h⟩) (blk1 V c 0 ⟨t, h⟩) (blk1 V c 1 ⟨t, h⟩) (blk1 V c 2 ⟨t, h⟩) (blk1 V c 3 ⟨t, h⟩) s.1,
       stepN (grid1.coords ⟨t, h⟩) (blk1 V c 0 ⟨t, h⟩) (blk1 V c 1 ⟨t, h⟩) (blk1 V c 2 ⟨t, h⟩) (blk1 V c 3 ⟨t, h⟩) s.2)
    else acc c t

/-- What the last column block's point leaves in the output block: the loss of the two finished columns. -/
def lossBlock (p n : Vec F S1024x1 .f32) : Vec F S1024x1 .f32 :=
  View.canon [⟨rC, k1_pay3 p n⟩]

/-- Region 0's four staging buffers, idle while region 1 runs, each whole at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant between the points of region 1: the idle buffers and the generator register untouched, and the
    two scratch columns holding the running sums of the points so far (before the first point: anything). -/
def Phi1 (c : Dev nD) (t : Fin (cfg1.N + 1)) : sProp 𝕄 :=
  iprop(idleBufs (F := F) c ∗ (∃ r, prngReg c r)
    ∗ ∃ (p n : Vec F S1024x1 .f32), owns (c : Thread nD τ) (Memref.whole cc1_scratch0) fullShare p
        ∗ owns (c : Thread nD τ) (Memref.whole cc1_scratch1) fullShare n
        ∗ ⌜0 < t.val → p = (acc V c t.val).1 ∧ n = (acc V c t.val).2⌝)

/-- The proof data of region 1: the four input blocks stay; the output block, at the last column block of a row
    block, holds the loss of the finished sums (elsewhere the body does not touch it); the normalised rows are read
    through two windows, each at half the share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => lossBlock (acc V c (t.val + 1)).1 (acc V c (t.val + 1)).2
  Φ t := Phi1 V c t
  q w := match w with
    | ⟨0, _⟩ => fullShare.left
    | ⟨1, _⟩ => fullShare.right
    | ⟨2, _⟩ => fullShare
    | ⟨3, _⟩ => fullShare
    | ⟨4, _⟩ => fullShare
  owed _ := 0

end Cert.Kernel.Hand

end
-- ==== Proof.Bits.Region0.lean ====
/-
  Region 0, the row normalisation: the body's triple and the library's body obligation.

  The body loads the whole input block, loads the whole output block once (the value is not used), and stores the
  normalised rows over the whole output block. So after the body the input block is as it was and the output block
  holds the one store's payload at every index: the store's rectangle is the whole block.
-/
import proofs.«110256_j13761075216965_2_alg».proof.Proof.Bits.Data

-- membership in a rectangle of 1024 x 512 entries: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's staging buffer before the body -/

/-- The input window's current staging buffer holds its block at every point, fetched there or not, for any proof
    data whose array is the entry contents and whose body leaves the block in place: the window is fetched whole
    and is never idle. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The body's one store covers the output block -/

/-- The store's rectangle is the whole block, so every index of the block lies in it. -/
theorem cover0_1 (p0 : Vec F S1024x512 .bf16) (y : S1024x512.Idx) :
    ∃ pc ∈ ([⟨rA, p0⟩] : List (View.Piece (Elt F) S1024x512 .bf16)), y ∈ pc.1.set :=
  View.cover_of_tiled [⟨rA, p0⟩] S1024x512.size (by rfl) y

/-! ## The body's triple -/

set_option maxHeartbeats 1000000 in
/-- The body on whole staging memrefs, the input's at read contents `x0` and the output's at anything, runs to the
    continuation holding the input's as it was and the output's at the normalised rows of `x0`. -/
theorem sound_kernel0 (c : Dev nD) (E : Set ℕ) (i : grid0.Coords) (arg0 : Memref sig .tc .vmem S1024x512 .f32) (harg0 : arg0.IsWhole)
    (arg1 : Memref sig .tc .vmem S1024x512 .bf16) (harg1 : arg1.IsWhole)
    (x0 : Vec F S1024x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (normBlock x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data projected -/

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = normBlock (blk0 V c 0 t) := by dsimp only [dat0]

/-- The input's current staging buffer holds its block at every point. -/
theorem before0_0 (c : Dev nD) (t : Fin cfg0.N) (d) : (dat0 V c).before 0 t d = blk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1Runs.lean ====
/-
  The body of region 1 on whole memrefs at variable contents, one triple per control case.

  The body branches twice on the column-block coordinate j of the grid point: at j = 0 it first resets the two
  running columns; at j = 15 it finally stores the loss of the two columns to the output block. Between, it
  always adds this block's row sums to the two columns. So there are three cases (j = 0, 0 < j < 15, j = 15),
  and in each the two scratch columns end at one update (stepP, stepN) of what they started from - at j = 0 of
  the reset values, whatever they held. The output block is left as found except at j = 15.
-/
import proofs.«110256_j13761075216965_2_alg».proof.Proof.Bits.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, in closed form over the grid -/

/-- The first conditional's condition (the column block is the first one), from the grid coordinates. -/
abbrev cond1_0 (i : grid1.Coords) : Prop :=
  (Scalar.cmpi .ne (Scalar.extui (Scalar.cmpi .eq (BitVec.ofNat 32 (i 1).val) 0#32)) 0#32) = 1#1
/-- It holds exactly at the points that are multiples of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (the column block is the last one). -/
abbrev cond1_1 (i : grid1.Coords) : Prop := k1_cond2 i = 1#1
/-- It holds exactly at the points that are 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Whole-buffer loads and stores -/

theorem hz : (![0, 0] : Fin 2 → Nat) = fun _ => 0 := funext fun a => by fin_cases a <;> rfl

/-- A store through the whole column, made last, read back through any view, is its payload. -/
theorem read_writes_col_cons {sg : RefSig} {κ : Kind} {sp : Space} (v : View sg κ sp S1024x1 .f32) (f : v.ty.Contents (Elt F))
    (w : Vec F S1024x1 .f32) (L : List (View.Piece (Elt F) S1024x1 .f32)) :
    v.read (Elt F) (v.writes (Elt F) f (⟨rC, w⟩ :: L)) = w := by
  rw [View.read_writes_eq_canon _ _ _ (fun y => ⟨_, List.mem_cons.mpr (Or.inl rfl), View.mem_set_unit_zero hz inb_S1024x1_S1024x1_0_0 y⟩)]
  exact View.canon_cons_unit_zero hz _ w L

/-- A load of the whole column after one store of the whole column reads the payload. -/
theorem readCov_col {sg : RefSig} {κ : Kind} {sp : Space} (v : View sg κ sp S1024x1 .f32) (w : Vec F S1024x1 .f32) :
    v.readCov [(⟨rC, w⟩ : View.Piece (Elt F) S1024x1 .f32)] rC.toLoadRect = w :=
  View.readCov_unit_zero v hz inb_S1024x1_S1024x1_0_0 w

/-! ## The body's triple, case by case

Each is over ANY whole memrefs and contents: the four input blocks `q k lr lc`, the output block `d`, the two
columns `p n`. The printed function is its skeleton of loads and stores over the named payloads; each conditional is decided
from the case's hypotheses. -/

set_option maxHeartbeats 1000000 in
/-- The first column block (j = 0): both columns are reset, whatever they held, then updated once; the output block is left as found. -/
theorem run1_first (c : Dev nD) (E : Set ℕ) (i : grid1.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : cond1_0 i) (hc1 : ¬cond1_1 i)
    (q : Vec F S1024x512 .bf16) (k : Vec F S512x512 .bf16) (lr : Vec F S1024x1 .i32) (lc : Vec F S1x512 .i32)
    (d p n : Vec F S1024x1 .f32) (K : PUnit → sProp 𝕄) :
    iprop(owns (c : Thread nD τ) arg2 fullShare q ∗ owns (c : Thread nD τ) arg3 fullShare k
        ∗ owns (c : Thread nD τ) arg4 fullShare lr ∗ owns (c : Thread nD τ) arg5 fullShare lc
        ∗ owns (c : Thread nD τ) arg6 fullShare d ∗ owns (c : Thread nD τ) arg7 fullShare p ∗ owns (c : Thread nD τ) arg8 fullShare n
        ∗ (iprop(owns (c : Thread nD τ) arg2 fullShare q ∗ owns (c : Thread nD τ) arg3 fullShare k
            ∗ owns (c : Thread nD τ) arg4 fullShare lr ∗ owns (c : Thread nD τ) arg5 fullShare lc
            ∗ owns (c : Thread nD τ) arg6 fullShare d
            ∗ owns (c : Thread nD τ) arg7 fullShare (stepP i q k lr lc k1_pay4)
            ∗ owns (c : Thread nD τ) arg8 fullShare (stepN i q k lr lc k1_pay5)) -∗ K ⟨⟩))
      ⊢ wp frame (wpE (defs₀ (F := F)) Variants.none c none) E
          (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    sl_unfold_words
    rw [read_writes_col_cons, readCov_col]
    unfold stepP
    simp only [View.readAt_eq_ld, View.ld_unit_zero (S := S1024x512) hz, View.ld_unit_zero (S := S512x512) hz, View.ld_unit_zero (S := S1024x1) hz, View.ld_unit_zero (S := S1x512) hz]
  · iexists _; isplitr
    swap; · iexact H8
    ipureintro
    sl_unfold_words
    rw [read_writes_col_cons, readCov_col]
    unfold stepN
    simp only [View.readAt_eq_ld, View.ld_unit_zero (S := S1024x512) hz, View.ld_unit_zero (S := S512x512) hz, View.ld_unit_zero (S := S1024x1) hz, View.ld_unit_zero (S := S1x512) hz]

set_option maxHeartbeats 1000000 in
/-- A middle column block (0 < j < 15): both columns are updated once; the output block is left as found. -/
theorem run1_mid (c : Dev nD) (E : Set ℕ) (i : grid1.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond1_0 i) (hc1 : ¬cond1_1 i)
    (q : Vec F S1024x512 .bf16) (k : Vec F S512x512 .bf16) (lr : Vec F S1024x1 .i32) (lc : Vec F S1x512 .i32)
    (d p n : Vec F S1024x1 .f32) (K : PUnit → sProp 𝕄) :
    iprop(owns (c : Thread nD τ) arg2 fullShare q ∗ owns (c : Thread nD τ) arg3 fullShare k
        ∗ owns (c : Thread nD τ) arg4 fullShare lr ∗ owns (c : Thread nD τ) arg5 fullShare lc
        ∗ owns (c : Thread nD τ) arg6 fullShare d ∗ owns (c : Thread nD τ) arg7 fullShare p ∗ owns (c : Thread nD τ) arg8 fullShare n
        ∗ (iprop(owns (c : Thread nD τ) arg2 fullShare q ∗ owns (c : Thread nD τ) arg3 fullShare k
            ∗ owns (c : Thread nD τ) arg4 fullShare lr ∗ owns (c : Thread nD τ) arg5 fullShare lc
            ∗ owns (c : Thread nD τ) arg6 fullShare d
            ∗ owns (c : Thread nD τ) arg7 fullShare (stepP i q k lr lc p)
            ∗ owns (c : Thread nD τ) arg8 fullShare (stepN i q k lr lc n)) -∗ K ⟨⟩))
      ⊢ wp frame (wpE (defs₀ (F := F)) Variants.none c none) E
          (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [read_writes_col_cons]
    unfold stepP
    simp only [View.readAt_eq_ld, View.ld_unit_zero (S := S1024x512) hz, View.ld_unit_zero (S := S512x512) hz, View.ld_unit_zero (S := S1024x1) hz, View.ld_unit_zero (S := S1x512) hz]
  · iexists _; isplitr
    swap; · iexact H8
    ipureintro
    rw [read_writes_col_cons]
    unfold stepN
    simp only [View.readAt_eq_ld, View.ld_unit_zero (S := S1024x512) hz, View.ld_unit_zero (S := S512x512) hz, View.ld_unit_zero (S := S1024x1) hz, View.ld_unit_zero (S := S1x512) hz]

set_option maxHeartbeats 1000000 in
/-- The last column block (j = 15): both columns are updated once, and the loss of the updated columns is stored over the output block, whatever it held. -/
theorem run1_last (c : Dev nD) (E : Set ℕ) (i : grid1.Coords)
    (arg2 : Memref sig .tc .vmem S1024x512 .bf16) (harg2 : arg2.IsWhole) (arg3 : Memref sig .tc .vmem S512x512 .bf16) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc0 : ¬cond1_0 i) (hc1 : cond1_1 i)
    (q : Vec F S1024x512 .bf16) (k : Vec F S512x512 .bf16) (lr : Vec F S1024x1 .i32) (lc : Vec F S1x512 .i32)
    (d p n : Vec F S1024x1 .f32) (K : PUnit → sProp 𝕄) :
    iprop(owns (c : Thread nD τ) arg2 fullShare q ∗ owns (c : Thread nD τ) arg3 fullShare k
        ∗ owns (c : Thread nD τ) arg4 fullShare lr ∗ owns (c : Thread nD τ) arg5 fullShare lc
        ∗ owns (c : Thread nD τ) arg6 fullShare d ∗ owns (c : Thread nD τ) arg7 fullShare p ∗ owns (c : Thread nD τ) arg8 fullShare n
        ∗ (iprop(owns (c : Thread nD τ) arg2 fullShare q ∗ owns (c : Thread nD τ) arg3 fullShare k
            ∗ owns (c : Thread nD τ) arg4 fullShare lr ∗ owns (c : Thread nD τ) arg5 fullShare lc
            ∗ owns (c : Thread nD τ) arg6 fullShare (lossBlock (stepP i q k lr lc p) (stepN i q k lr lc n))
            ∗ owns (c : Thread nD τ) arg7 fullShare (stepP i q k lr lc p)
            ∗ owns (c : Thread nD τ) arg8 fullShare (stepN i q k lr lc n)) -∗ K ⟨⟩))
      ⊢ wp frame (wpE (defs₀ (F := F)) Variants.none c none) E
          (cc1__main_kernel i arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc0 | exact hc1)
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_words
    rw [read_writes_col_cons, readCov_col, readCov_col]
    unfold lossBlock stepP stepN
    rw [View.canon_unit_zero hz]
    simp only [View.readAt_eq_ld, View.ld_unit_zero (S := S1024x512) hz, View.ld_unit_zero (S := S512x512) hz, View.ld_unit_zero (S := S1024x1) hz, View.ld_unit_zero (S := S1x512) hz]
  isplitl [H7]
  · iexists _; isplitr
    swap; · iexact H7
    ipureintro
    sl_unfold_words
    rw [read_writes_col_cons]
    unfold stepP
    simp only [View.readAt_eq_ld, View.ld_unit_zero (S := S1024x512) hz, View.ld_unit_zero (S := S512x512) hz, View.ld_unit_zero (S := S1024x1) hz, View.ld_unit_zero (S := S1x512) hz]
  · iexists _; isplitr
    swap; · iexact H8
    ipureintro
    sl_unfold_words
    rw [read_writes_col_cons]
    unfold stepN
    simp only [View.readAt_eq_ld, View.ld_unit_zero (S := S1024x512) hz, View.ld_unit_zero (S := S512x512) hz, View.ld_unit_zero (S := S1024x1) hz, View.ld_unit_zero (S := S1x512) hz]

end Cert.Kernel.Hand

end
-- ==== Proof.Bits.Region1.lean ====
/-
  The body obligation of region 1.

  At point t = 16 i + j the body is called with the four input blocks of the point in the inputs' staging buffers,
  the output's staging buffer, and the two scratch columns. The invariant between points says what the columns
  hold: the running sums `acc` of the points so far. By the column block j the point is in one of three cases
  (j = 0: the columns are reset first, so what they held is not read; 0 < j < 15; j = 15: the loss is stored), each
  the corresponding triple of the body on whole memrefs; afterwards the columns hold `acc` one point further,
  which is `acc`'s defining equation. The output's buffer is idle at j < 15 (handed back as found, and not
  written back there) and holds the loss block at j = 15.
-/
import proofs.«110256_j13761075216965_2_alg».proof.Proof.Bits.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data, field by field -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = lossBlock (acc V c (t.val + 1)).1 (acc V c (t.val + 1)).2 := by dsimp only [dat1]

/-- Each input's current staging buffer holds its block of the point, fetched there or not: where it is not
    fetched its block index has not moved since the point before, and the body leaves the block in place. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans
    (by unfold Dat.fetched Dat.blockOf blk1; rw [A_eq1]; try rfl)

/-! ## The running sums, one point further -/

/-- At the first column block of a row block the columns restart from the reset values. -/
theorem acc_succ_first (c : Dev nD) (t : Fin cfg1.N) (h : t.val % 16 = 0) :
    acc V c (t.val + 1)
      = (stepP (grid1.coords t) (blk1 V c 0 t) (blk1 V c 1 t) (blk1 V c 2 t) (blk1 V c 3 t) k1_pay4,
         stepN (grid1.coords t) (blk1 V c 0 t) (blk1 V c 1 t) (blk1 V c 2 t) (blk1 V c 3 t) k1_pay5) := by
  obtain ⟨n, hn⟩ := t
  show acc V c (n + 1) = _
  rw [acc, dif_pos hn]
  dsimp only
  rw [if_pos h]

/-- At every other column block they continue from the point before. -/
theorem acc_succ_step (c : Dev nD) (t : Fin cfg1.N) (h : ¬t.val % 16 = 0) :
    acc V c (t.val + 1)
      = (stepP (grid1.coords t) (blk1 V c 0 t) (blk1 V c 1 t) (blk1 V c 2 t) (blk1 V c 3 t) (acc V c t.val).1,
         stepN (grid1.coords t) (blk1 V c 0 t) (blk1 V c 1 t) (blk1 V c 2 t) (blk1 V c 3 t) (acc V c t.val).2) := by
  obtain ⟨n, hn⟩ := t
  show acc V c (n + 1) = _
  rw [acc, dif_pos hn]
  dsimp only
  rw [if_neg h]

/-! ## The invariant at a point's two ends -/

theorem Phi1_castSucc (c : Dev nD) (t : Fin cfg1.N) :
    (dat1 V c).Φ t.castSucc = iprop(idleBufs (F := F) c ∗ (∃ r, prngReg c r)
      ∗ ∃ (p n : Vec F S1024x1 .f32), owns (c : Thread nD τ) (Memref.whole cc1_scratch0) fullShare p
          ∗ owns (c : Thread nD τ) (Memref.whole cc1_scratch1) fullShare n
          ∗ ⌜0 < t.val → p = (acc V c t.val).1 ∧ n = (acc V c t.val).2⌝) := rfl

theorem Phi1_succ (c : Dev nD) (t : Fin cfg1.N) :
    (dat1 V c).Φ t.succ = iprop(idleBufs (F := F) c ∗ (∃ r, prngReg c r)
      ∗ ∃ (p n : Vec F S1024x1 .f32), owns (c : Thread nD τ) (Memref.whole cc1_scratch0) fullShare p
          ∗ owns (c : Thread nD τ) (Memref.whole cc1_scratch1) fullShare n
          ∗ ⌜0 < t.val + 1 → p = (acc V c (t.val + 1)).1 ∧ n = (acc V c (t.val + 1)).2⌝) := rfl

/-! ## Where the output window is idle -/

/-- Off the last column block the output window is idle: the body stores nothing into it there, -/
theorem idle1_4_of (i : grid1.Coords) (h : ¬cond1_1 i) : cfg1.idle 4 i = true := by
  show (!(k1_cond2 i == 1#1)) = true
  rw [Bool.not_eq_true', beq_eq_false_iff_ne]; exact h
/-- and at it the window is live. -/
theorem live1_4_of (i : grid1.Coords) (h : cond1_1 i) : cfg1.idle 4 i = false := by
  show (!(k1_cond2 i == 1#1)) = false
  rw [Bool.not_eq_false', beq_iff_eq]; exact h
/-- Off the last column block the output's block is not written back. -/
theorem noFlush1_4 (t : Fin cfg1.N) (h : ¬t.val % 16 = 15) : (cfg1.win 4).flush t = false := by
  cases hf : (cfg1.win 4).flush t
  · rfl
  · exact absurd ((flush1_4 t).mp hf) h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point: by the column block, the case's triple at the point's memrefs and blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2,
    show (dat1 V c).leavesExact 3 t = owns (c : Thread nD τ) (st1_3 t) fullShare ((dat1 V c).after 3 t) from rfl, after1_3]
  rw [Phi1_castSucc, Phi1_succ]
  have hN : t.val < 128 := lt_of_lt_of_eq t.isLt (show cfg1.N = 128 from N_1)
  by_cases h0 : t.val % 16 = 0
  · -- the first column block
    have h15 : ¬t.val % 16 = 15 := by omega
    have hc0 : cond1_0 (grid1.coords t) := (hcond1_0 t).mpr h0
    have hc1 : ¬cond1_1 (grid1.coords t) := fun h => h15 ((hcond1_1 t).mp h)
    rw [Dat.leavesExact_idle (dat1 V c) 4 t (idle1_4_of _ hc1) (noFlush1_4 t h15)]
    rw [acc_succ_first V c t h0]
    iintro ⟨⟨Hidle, Hg, ⟨%p, %n, HS0, HS1, -⟩⟩, Ho, ⟨%d0, H0⟩, ⟨%d1, H1⟩, ⟨%d2, H2⟩, ⟨%d3, H3⟩, ⟨%d4, H4⟩⟩
    iapply (run1_first c Set.univ (grid1.coords t) _ _ _ _ _ _ _ _ _ _ _ _ _ _ hc0 hc1
      (blk1 V c 0 t) (blk1 V c 1 t) (blk1 V c 2 t) (blk1 V c 3 t) _ p n _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [Hidle Hg HS0 HS1]
    · isplitl [Hidle]; · iexact Hidle
      isplitl [Hg]; · iexact Hg
      iexists _, _
      isplitl [HS0]; · iexact HS0
      isplitl [HS1]; · iexact HS1
      ipureintro; exact fun _ => ⟨rfl, rfl⟩
    isplitl [Ho]; · iexact Ho
    isplitl [H0]; · iexact H0
    isplitl [H1]; · iexact H1
    isplitl [H2]; · iexact H2
    isplitl [H3]; · iexact H3
    iexists _; iexact H4
  · have hpos : 0 < t.val := by omega
    rw [acc_succ_step V c t h0]
    by_cases h15 : t.val % 16 = 15
    · -- the last column block
      have hc0 : ¬cond1_0 (grid1.coords t) := fun h => h0 ((hcond1_0 t).mp h)
      have hc1 : cond1_1 (grid1.coords t) := (hcond1_1 t).mpr h15
      rw [show (dat1 V c).leavesExact 4 t = owns (c : Thread nD τ) (st1_4 t) fullShare ((dat1 V c).after 4 t) from by
        unfold Dat.leavesExact; rw [live1_4_of _ hc1], after1_4, acc_succ_step V c t h0]
      iintro ⟨⟨Hidle, Hg, ⟨%p, %n, HS0, HS1, %hpn⟩⟩, Ho, ⟨%d0, H0⟩, ⟨%d1, H1⟩, ⟨%d2, H2⟩, ⟨%d3, H3⟩, ⟨%d4, H4⟩⟩
      obtain ⟨rfl, rfl⟩ := hpn hpos
      iapply (run1_last c Set.univ (grid1.coords t) _ _ _ _ _ _ _ _ _ _ _ _ _ _ hc0 hc1
        (blk1 V c 0 t) (blk1 V c 1 t) (blk1 V c 2 t) (blk1 V c 3 t) _ (acc V c t.val).1 (acc V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hidle Hg HS0 HS1]
      · isplitl [Hidle]; · iexact Hidle
        isplitl [Hg]; · iexact Hg
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      iexact H4
    · -- a middle column block
      have hc0 : ¬cond1_0 (grid1.coords t) := fun h => h0 ((hcond1_0 t).mp h)
      have hc1 : ¬cond1_1 (grid1.coords t) := fun h => h15 ((hcond1_1 t).mp h)
      rw [Dat.leavesExact_idle (dat1 V c) 4 t (idle1_4_of _ hc1) (noFlush1_4 t h15)]
      iintro ⟨⟨Hidle, Hg, ⟨%p, %n, HS0, HS1, %hpn⟩⟩, Ho, ⟨%d0, H0⟩, ⟨%d1, H1⟩, ⟨%d2, H2⟩, ⟨%d3, H3⟩, ⟨%d4, H4⟩⟩
      obtain ⟨rfl, rfl⟩ := hpn hpos
      iapply (run1_mid c Set.univ (grid1.coords t) _ _ _ _ _ _ _ _ _ _ _ _ _ _ hc0 hc1
        (blk1 V c 0 t) (blk1 V c 1 t) (blk1 V c 2 t) (blk1 V c 3 t) _ (acc V c t.val).1 (acc V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [Hidle Hg HS0 HS1]
      · isplitl [Hidle]; · iexact Hidle
        isplitl [Hg]; · iexact Hg
        iexists _, _
        isplitl [HS0]; · iexact HS0
        isplitl [HS1]; · iexact HS1
        ipureintro; exact fun _ => ⟨rfl, rfl⟩
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The run of the whole program: the buffers' contents at each boundary between two items of the entry function
  (a kernel region or a stretch of host operations), the proof data of both regions at the contents their region
  is entered from, each region as a segment, and the launch: every weakly fair execution terminates and ends with
  every unscoped buffer at the last boundary's contents.

  Region 1 reads the normalised rows through two windows (row blocks and column blocks of one array). The array's
  full share is split in two halves at the region's entry, one per window, and joined again at its exit; both
  windows only read, so both halves end at the contents they were entered with.
-/
import proofs.«110256_j13761075216965_2_alg».proof.Proof.Bits.Data

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (region 0's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At region 0's exit: its output array at what its write-backs leave, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the two reshapes of the labels (region 1's entry). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At region 1's exit: the per-row losses at what the write-backs leave, every other buffer as entered. -/
abbrev W3 : Dev nD → Valuation τ sig (Elt F) := fun c =>
  Function.update (W2 m ρ c) (Proc.devRef .tc main_v3) ((dat1 (U2 m ρ) c).arrAt 4 cfg1.N)
abbrev U3 : (c : Dev nD) → (b : Ref sig .tc) → Buf (Elt F) ((c : Thread nD τ).loc b) := fun c b => W3 m ρ c b
/-- After the mean (the end). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tn (c : Dev nD) : sProp 𝕄 := iprop(StableHlo.held (c : Thread nD τ) (Pipeline.ucRefs τ sig) (W4 m ρ c) ∗ ∃ r, prngReg c r)

/-! ## Region 0 as a segment -/

set_option backward.isDefEq.respectTransparency.types false in
/-- Region 0 over the thread state: entered from every unscoped buffer at the launch contents, left with the
    normalised rows written; the generator register goes into the invariant and comes back; nothing is owed. -/
def reg0 (hb0 : ∀ c, BodyObligation (dat0 (F := F) (U0 m ρ) c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ Rr c)
  post c := iprop(StableHlo.held (c : Thread nD τ) (Pipeline.ucRefs τ sig) (W1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the arrays dealt at entry and gathered at exit -/

/-- The four distinct buffers behind region 1's five windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  unfold Pipeline.arrBufs
  exact bigSep_eq_bigSepL_of_eq [main_v0, main_v1, main_v2, main_v3] (by decide) (by decide) _

section Deal
variable (V : (c : Dev nD) → (b : Ref sig .tc) → Buf (Elt F) ((c : Thread nD τ).loc b))

/-- The shares region 1 holds its arrays at: the normalised rows at one half per reading window, the rest whole. -/
theorem share1_0 (c : Dev nD) : (dat1 (F := F) V c).share 0 = fullShare.left := rfl
theorem share1_1 (c : Dev nD) : (dat1 (F := F) V c).share 1 = fullShare.right := rfl
theorem share1_2 (c : Dev nD) : (dat1 (F := F) V c).share 2 = fullShare := rfl
theorem share1_3 (c : Dev nD) : (dat1 (F := F) V c).share 3 = fullShare := rfl
theorem share1_4 (c : Dev nD) : (dat1 (F := F) V c).share 4 = fullShare := rfl
/-- At entry each window's array holds the entry contents. -/
theorem arr1_entry (c : Dev nD) (w : Fin cfg1.W) : (dat1 (F := F) V c).arrAt w 0 = V c (Pipeline.arrRef spec1 w) := rfl

/-- Region 1's entry: the unscoped buffers are its five windows' arrays at the entry contents, the normalised rows
    at one half share per reading window, and the buffers no window touches. -/
theorem deal1 (c : Dev nD) :
    (unscopedBufs c (V c) : sProp 𝕄)
      ⊢ iprop((dat1 (F := F) V c).arrays ((dat1 (F := F) V c).arrAt · 0)
          ∗ Pipeline.unscopedRest (Ix := Unit) (Name := ℕ) (U := UR sig nD τ) (Lvl := ℕ) spec1 c (V c)) := by
  rw [Pipeline.unscopedBufs_split₀ (fun p : Fin 2 => cfgs p) 1 winFacts₀1.arr_unscoped c (V c)]
  refine sep_mono ?_ .rfl
  show Pipeline.arrBufs spec1 c (V c) ⊢ _
  rw [arrBufs1_eq]
  unfold Dat.arrays
  rw [bigSep_W1]
  simp only [share1_0, share1_1, share1_2, share1_3, share1_4, arr1_entry,
    (arr_whole1 0).set_eq_univ, (arr_whole1 1).set_eq_univ, (arr_whole1 2).set_eq_univ, (arr_whole1 3).set_eq_univ, (arr_whole1 4).set_eq_univ]
  iintro ⟨Hrows, Hlr, Hlc, Hout⟩
  ihave Hs := (pointsTo_share (PosShare.mem_left_op_right fullShare)).1 $$ Hrows
  icases Hs with ⟨Ha, Hb⟩
  isplitl [Ha]; · iexact Ha
  isplitl [Hb]; · iexact Hb
  isplitl [Hlr]; · iexact Hlr
  isplitl [Hlc]; · iexact Hlc
  iexact Hout
end Deal

section Gather
variable (V V' : (c : Dev nD) → (b : Ref sig .tc) → Buf (Elt F) ((c : Thread nD τ).loc b))

/-- A window region 1 only reads ends at its entry contents, after any number of points. -/
theorem arr1_in0 (c : Dev nD) (n : ℕ) : (dat1 (F := F) V c).arrAt 0 n = V c main_v0 := ((dat1 (F := F) V c).arrAt_in 0 rfl n).trans rfl
theorem arr1_in1 (c : Dev nD) (n : ℕ) : (dat1 (F := F) V c).arrAt 1 n = V c main_v0 := ((dat1 (F := F) V c).arrAt_in 1 rfl n).trans rfl
theorem arr1_in2 (c : Dev nD) (n : ℕ) : (dat1 (F := F) V c).arrAt 2 n = V c main_v1 := ((dat1 (F := F) V c).arrAt_in 2 rfl n).trans rfl
theorem arr1_in3 (c : Dev nD) (n : ℕ) : (dat1 (F := F) V c).arrAt 3 n = V c main_v2 := ((dat1 (F := F) V c).arrAt_in 3 rfl n).trans rfl

/-- Region 1's exit: its arrays at their final contents — the two halves of the normalised rows joined, the losses
    as written back — and the buffers no window touches make the unscoped buffers at the exit contents. -/
theorem gather1 (c : Dev nD) (h3 : V' c main_v3 = (dat1 (F := F) V c).arrAt 4 cfg1.N)
    (hrest : ∀ b : Ref sig .tc, b ≠ main_v3 → V' c b = V c b) :
    iprop((dat1 (F := F) V c).arrays ((dat1 (F := F) V c).arrAt · cfg1.N)
        ∗ Pipeline.unscopedRest (Ix := Unit) (Name := ℕ) (U := UR sig nD τ) (Lvl := ℕ) spec1 c (V c))
      ⊢ (unscopedBufs c (V' c) : sProp 𝕄) := by
  rw [Pipeline.unscopedBufs_split₀ (fun p : Fin 2 => cfgs p) 1 winFacts₀1.arr_unscoped c (V' c)]
  refine sep_mono ?_ (Entails.of_eq ?_)
  · show _ ⊢ Pipeline.arrBufs spec1 c (V' c)
    rw [arrBufs1_eq]
    unfold Dat.arrays
    rw [bigSep_W1]
    simp only [share1_0, share1_1, share1_2, share1_3, share1_4, arr1_in0, arr1_in1, arr1_in2, arr1_in3,
      (arr_whole1 0).set_eq_univ, (arr_whole1 1).set_eq_univ, (arr_whole1 2).set_eq_univ, (arr_whole1 3).set_eq_univ, (arr_whole1 4).set_eq_univ]
    rw [hrest main_v0 (by decide), hrest main_v1 (by decide), hrest main_v2 (by decide), h3]
    iintro ⟨Ha, Hb, Hlr, Hlc, Hout⟩
    isplitl [Ha Hb]
    · iapply (pointsTo_share (PosShare.mem_left_op_right fullShare)).2
      isplitl [Ha]; · iexact Ha
      iexact Hb
    isplitl [Hlr]; · iexact Hlr
    isplitl [Hlc]; · iexact Hlc
    iexact Hout
  · show Pipeline.unscopedRest spec1 c (V c) = Pipeline.unscopedRest spec1 c (V' c)
    rw [unscopedRest1_eq, unscopedRest1_eq, hrest main_arg0 (by decide), hrest main_arg1 (by decide), hrest main_cst (by decide),
      hrest main_v4 (by decide), hrest main_cst_0 (by decide), hrest main_v5 (by decide)]
end Gather

/-! ## Region 1 as a segment -/

theorem U3_out (c : Dev nD) : U3 m ρ c main_v3 = (dat1 (F := F) (U2 m ρ) c).arrAt 4 cfg1.N := by
  show Function.update (W2 m ρ c) (Proc.devRef .tc main_v3) _ (Proc.devRef .tc main_v3) = _
  exact Function.update_self _ _ _
theorem U3_rest (c : Dev nD) (b : Ref sig .tc) (hb : b ≠ main_v3) : U3 m ρ c b = U2 m ρ c b := by
  show Function.update (W2 m ρ c) (Proc.devRef .tc main_v3) _ (Proc.devRef .tc b) = _
  exact Function.update_of_ne (StableHlo.devRef_ne_of_ne hb) _ _

set_option backward.isDefEq.respectTransparency.types false in
/-- Region 1 over the thread state: entered from every unscoped buffer as the reshapes left them, left with the
    per-row losses written; the scratch columns and the generator register go into the invariant and come back. -/
def reg1 (hb1 : ∀ c, BodyObligation (dat1 (F := F) (U2 m ρ) c) (defs₀ (F := F)) Variants.none () Set.univ) :
    Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m ρ c) ∗ Rr c)
  post c := iprop(StableHlo.held (c : Thread nD τ) (Pipeline.ucRefs τ sig) (W3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := deal1 (F := F) (U2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r) ∗ Pipeline.prefHeld _ c _ _ ∗ Pipeline.scopedRest spec1 c) ⊢ Phi1 (U2 m ρ) c 0
    rw [scopedRest1_eq]; unfold Phi1 idleBufs
    simp only [owns_whole]
    iintro ⟨Hp, -, Hs0, Hs1, Hs2, Hs3, ⟨%f0, Hc0⟩, ⟨%f1, Hc1⟩⟩
    isplitl [Hs0 Hs1 Hs2 Hs3]
    · isplitl [Hs0]; · iexact Hs0
      isplitl [Hs1]; · iexact Hs1
      isplitl [Hs2]; · iexact Hs2
      iexact Hs3
    isplitl [Hp]; · iexact Hp
    iexists f0; iexists f1
    isplitl [Hc0]; · iexact Hc0
    isplitl [Hc1]; · iexact Hc1
    ipureintro
    intro h; exact absurd h (by rw [Fin.val_zero]; exact Nat.lt_irrefl 0)
  hout c := by
    rw [Pipeline.ownSems0_none]
    show Phi1 (U2 m ρ) c (Fin.last cfg1.N) ⊢ iprop((∃ r, prngReg c r) ∗ BI.emp ∗ Pipeline.scopedRest spec1 c)
    rw [scopedRest1_eq]; unfold Phi1 idleBufs
    simp only [owns_whole]
    iintro ⟨⟨Hs0, Hs1, Hs2, Hs3⟩, Hp, ⟨%p, %n, Hc0, Hc1, -⟩⟩
    isplitl [Hp]; · iexact Hp
    isplitr; · iempintro
    isplitl [Hs0]; · iexact Hs0
    isplitl [Hs1]; · iexact Hs1
    isplitl [Hs2]; · iexact Hs2
    isplitl [Hs3]; · iexact Hs3
    isplitl [Hc0]; · iexists p; iexact Hc0
    iexists n; iexact Hc1
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (U2 m ρ c))
        ⊢ (unscopedBufs c (U3 m ρ c) : sProp 𝕄) := gather1 (F := F) (U2 m ρ) (U3 m ρ) c (U3_out m ρ c) (U3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The four items in order: the normalisation, the two reshapes, the loss kernel, the mean. -/
abbrev segs (hb0 : ∀ c, BodyObligation (dat0 (F := F) (U0 m ρ) c) (defs₀ (F := F)) Variants.none () Set.univ)
    (hb1 : ∀ c, BodyObligation (dat1 (F := F) (U2 m ρ) c) (defs₀ (F := F)) Variants.none () Set.univ) : List (Pipeline.Seg (pcfgs (F := F)) adm (pdats m ρ) () defs₀ 𝒱₀ L lv) :=
  [ .region (reg0 m ρ hb0),
    .host (hseg hostOps1 hostOps1_sub ops1_fresh (W1 m ρ)),
    .region (reg1 m ρ hb1),
    .host (hseg hostOps2 hostOps2_sub ops2_fresh (W3 m ρ)) ]

theorem main_run (hb0 : ∀ c, BodyObligation (dat0 (F := F) (U0 m ρ) c) (defs₀ (F := F)) Variants.none () Set.univ)
    (hb1 : ∀ c, BodyObligation (dat1 (F := F) (U2 m ρ) c) (defs₀ (F := F)) Variants.none () Set.univ) (c : Dev nD) : main (F := F) c = Pipeline.Seg.run (segs m ρ hb0 hb1) := (main_chain c).trans (by chain_rfl)

set_option backward.isDefEq.respectTransparency.types false in
/-- Every weakly fair execution from memory `m` with zero counters terminates without a fault, and ends with every
    unscoped buffer of every core at the last boundary's contents. -/
theorem run_main (hb0 : ∀ c, BodyObligation (dat0 (F := F) (U0 m ρ) c) (defs₀ (F := F)) Variants.none () Set.univ)
    (hb1 : ∀ c, BodyObligation (dat1 (F := F) (U2 m ρ) c) (defs₀ (F := F)) Variants.none () Set.univ) : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun c => by
      show iprop(StableHlo.held (c : Thread nD τ) (Pipeline.ucRefs τ sig) (W4 m ρ c) ∗ Rr c)
        ⊢ iprop(Tn m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.Bits.ReadBack.lean ====
/-
  What the buffers hold at the last boundary, walked back through the four items: the two arguments are never
  written, so they end as launched; the result is the mean of the per-row losses region 1 leaves; region 1 reads the
  normalised rows region 0 leaves and the two reshapes of the labels.
-/
import proofs.«110256_j13761075216965_2_alg».proof.Proof.Bits.Run
import proofs.«110256_j13761075216965_2_alg».proof.Proof.Gen.Kernel.Regions
import Idealize.ShloMosaic.Lib.StableHlo.Run

noncomputable section

namespace Cert.Kernel.Hand

open Idealize.ShloMosaic Idealize.ShloMosaic.TcCoe Idealize.ShloMosaic.Tactic
open Idealize.SL Idealize.SL.Sem
open Idealize.ShloMosaic.Pipeline (Dat)
open Cert.Kernel
open Cert.Kernel.Facts₀ Cert.Kernel.Facts

variable {F : FTy → Type} [FloatOps F]
variable (m : (ℓ : Loc nD τ sig) → Buf (Elt F) ℓ) (ρ : Dev nD → PrngReg)

/-- A buffer the mean's four operations do not write holds after them what it held before. -/
theorem W4_of (c : Dev nD) (r : Ref sig .tc) (h : r ∉ Gen.hostOps2_W) : W4 m ρ c r = W3 m ρ c r :=
  StableHlo.after_of_writes_sub Gen.hostOps2 _ Gen.hostOps2_writes h
/-- Region 1 changes only the buffer of the per-row losses. -/
theorem W3_of (c : Dev nD) (r : Ref sig .tc) (h : r ≠ main_v3) : W3 m ρ c r = W2 m ρ c r :=
  U3_rest m ρ c r h
/-- A buffer the two reshapes do not write holds after them what it held before. -/
theorem W2_of (c : Dev nD) (r : Ref sig .tc) (h : r ∉ Gen.hostOps1_W) : W2 m ρ c r = W1 m ρ c r :=
  StableHlo.after_of_writes_sub Gen.hostOps1 _ Gen.hostOps1_writes h

/-- The features end as launched. -/
theorem W4_arg0 (c : Dev nD) : W4 m ρ c main_arg0 = m ((c : Thread nD τ).loc main_arg0) :=
  (W4_of m ρ c main_arg0 (by decide)).trans <| (W3_of m ρ c main_arg0 (by decide)).trans <| (W2_of m ρ c main_arg0 (by decide)).trans <|
    (W1_arr m ρ c 0).trans (((dat0 (U0 m ρ) c).arrAt_in 0 rfl _).trans rfl)
/-- The labels end as launched. -/
theorem W4_arg1 (c : Dev nD) : W4 m ρ c main_arg1 = m ((c : Thread nD τ).loc main_arg1) :=
  (W4_of m ρ c main_arg1 (by decide)).trans <| (W3_of m ρ c main_arg1 (by decide)).trans <| (W2_of m ρ c main_arg1 (by decide)).trans <|
    (W1_of_ne m ρ c main_arg1 (by decide)).trans rfl

/-- Region 1 reads the normalised rows as region 0 leaves them. -/
theorem U2_rows (c : Dev nD) : U2 m ρ c main_v0 = (dat0 (U0 m ρ) c).arrAt 1 cfg0.N :=
  (W2_of m ρ c main_v0 (by decide)).trans (W1_arr m ρ c 1)

/-- The result is the mean of the last contents of the per-row losses. -/
theorem W4_result (c : Dev nD) :
    (W4 m ρ c main_v5 : S_.Idx → Elt F .f32) = Host.divf (Host.reduceAdd (W3 m ρ c main_v3 : S8192x1.Idx → Elt F .f32) (constant (F := F) S_ .f32 0x00000000#32) reducesTo_S8192x1_S_d0_1 h_S_) (constant (F := F) S_ .f32 0x46000000#32) := by
  show StableHlo.after Gen.hostOps2 (W3 m ρ c) (Proc.devRef .tc main_v5) = _
  after_results

/-- Region 1 reads the labels as a column … -/
theorem U2_labels_col (c : Dev nD) :
    (U2 m ρ c main_v1 : S8192x1.Idx → Elt F .i32) = shapeCast S8192x1 (m ((c : Thread nD τ).loc main_arg1) : S8192.Idx → Elt F .i32) shapeCasts_S8192_S8192x1 := by
  show StableHlo.after Gen.hostOps1 (W1 m ρ c) (Proc.devRef .tc main_v1) = _
  after_results
  rw [W1_of_ne m ρ c main_arg1 (by decide)]
  rfl
/-- … and as a row. -/
theorem U2_labels_row (c : Dev nD) :
    (U2 m ρ c main_v2 : S1x8192.Idx → Elt F .i32) = shapeCast S1x8192 (m ((c : Thread nD τ).loc main_arg1) : S8192.Idx → Elt F .i32) shapeCasts_S8192_S1x8192 := by
  show StableHlo.after Gen.hostOps1 (W1 m ρ c) (Proc.devRef .tc main_v2) = _
  after_results
  rw [W1_of_ne m ρ c main_arg1 (by decide)]
  rfl

/-! ## The run, read at the result and the arguments -/

/-- Given both regions' body obligations: every weakly fair execution terminates without a fault and ends with the
    result buffer at the last boundary's contents and both arguments as launched. -/
theorem run_result (hb0 : ∀ c, Pipeline.BodyObligation (dat0 (F := F) (U0 m ρ) c) (defs₀ (F := F)) Variants.none () Set.univ)
    (hb1 : ∀ c, Pipeline.BodyObligation (dat1 (F := F) (U2 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v5) = W4 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W4_arg0 m ρ c),
     (h c _ (mem_uc main_arg1 (by decide))).trans (W4_arg1 m ρ c)⟩) (run_main m ρ hb0 hb1)

/-- The frame: the program runs to the end, faults nowhere, and leaves both arguments as launched. -/
theorem frame_of (hb0 : ∀ c, Pipeline.BodyObligation (dat0 (F := F) (U0 m ρ) c) (defs₀ (F := F)) Variants.none () Set.univ)
    (hb1 : ∀ c, Pipeline.BodyObligation (dat1 (F := F) (U2 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ hb0 hb1)

end Cert.Kernel.Hand

end
-- ==== Proof.lean ====
/-
  The five claims.

  Both kernel programs run two kernel regions between stretches of host operations: region 0 divides each row of
  the features by the larger of its Euclidean norm and a small constant; region 1 walks an 8 x 16 grid of blocks of
  the normalised rows against themselves, accumulating per row the exponentials of the scaled inner products over
  the entries with an equal label and over the others (the diagonal removed), and stores  -log (p / (p + n + eps));
  the entry function returns the mean. The frames follow from one run of the segments (each region's proof data, its
  body obligation and the launch); the word-level program and its idealization differ only in the one named
  constant, so the same text proves both. The idealized kernel's result is that run read at the result buffer,
  the reference's is its run's composed term, and both are the one function `Cert.Spec.G` of the arguments: the
  kernel's scale is the reciprocal of the reference's divisor, its two selects are the reference's products with a
  0/1 mask, and its sixteen block sums per row add up to the reference's one sum.
-/
import proofs.«110256_j13761075216965_2_alg».proof.Defs
import proofs.«110256_j13761075216965_2_alg».proof.Proof.Gen.Kernel
import proofs.«110256_j13761075216965_2_alg».proof.Proof.Gen.KernelIdeal
import proofs.«110256_j13761075216965_2_alg».proof.Proof.Gen.ReferenceIdeal
import proofs.«110256_j13761075216965_2_alg».proof.Proof.Gen.ReferenceIdeal.Run
import proofs.«110256_j13761075216965_2_alg».proof.Proof.Gen.ReferenceIdeal.Read
import proofs.«110256_j13761075216965_2_alg».proof.Proof.Gen.Pre_finite_inputs
import proofs.«110256_j13761075216965_2_alg».proof.Proof.Region0
import proofs.«110256_j13761075216965_2_alg».proof.Proof.Region1
import proofs.«110256_j13761075216965_2_alg».proof.Proof.KernelValue
import proofs.«110256_j13761075216965_2_alg».proof.Proof.RefIsSpec
import proofs.«110256_j13761075216965_2_alg».proof.Proof.Bits.Region0
import proofs.«110256_j13761075216965_2_alg».proof.Proof.Bits.Region1
import proofs.«110256_j13761075216965_2_alg».proof.Proof.Bits.ReadBack
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ =>
  Cert.Kernel.Hand.frame_of (F := Bits) m ρ (fun c => Cert.Kernel.Hand.body_obligation0 _ c) (fun c => Cert.Kernel.Hand.body_obligation1 _ c)

/-- So does its idealization. -/
theorem frame_ki : Cert.frame_KernelIdeal := fun m ρ _ =>
  Cert.KernelIdeal.Hand.frame_of (F := Ideal) m ρ (fun c => Cert.KernelIdeal.Hand.body_obligation0 _ c) (fun c => Cert.KernelIdeal.Hand.body_obligation1 _ c)

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale 14.2857141 is named the reciprocal of the reference's divisor. -/
theorem preserves : Cert.preserves_Kernel_KernelIdeal :=
  IdealRules.named_const.statement Cert.KernelIdeal.κ "inv_temperature" .f32 0x41649249#32 ((134217728 / 9395241 : ℝ) : EReal) rfl

/-- At the ideal instance both programs, from memories agreeing on the arguments, end with the specification's
    value of the arguments in their result buffers. -/
theorem algebraic : Cert.algebraic_KernelIdeal_ReferenceIdeal := by
  intro m ρ m' ρ' _ hagree
  refine ⟨fun c => fun _ => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_value m ρ c), (h c).2⟩)
      (Cert.KernelIdeal.Hand.run_result (F := Ideal) m ρ (fun c => Cert.KernelIdeal.Hand.body_obligation0 _ c) (fun c => Cert.KernelIdeal.Hand.body_obligation1 _ c))
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_is_spec m' c, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
